-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x100x64x256 : Shape := ⟨4, ![32, 100, 64, 256]⟩
abbrev S32x100x32x256 : Shape := ⟨4, ![32, 100, 32, 256]⟩
abbrev S32x100x32 : Shape := ⟨3, ![32, 100, 32]⟩
abbrev S100x32x64 : Shape := ⟨3, ![100, 32, 64]⟩
abbrev S_ : Shape := ⟨0, ![]⟩

class Facts : Prop where
  bcast_S_S32x100x64x256 : S_.BroadcastsInDim S32x100x64x256 (![] : Fin 0 → Fin S32x100x64x256.rank)
  reducesTo_S32x100x64x256_S_d0_1_2_3 : S32x100x64x256.ReducesTo [0, 1, 2, 3] S_
  h_S_ : 0 < S_.numel
  bcast_S_S32x100x32x256 : S_.BroadcastsInDim S32x100x32x256 (![] : Fin 0 → Fin S32x100x32x256.rank)
  reducesTo_S32x100x32x256_S_d0_1_2_3 : S32x100x32x256.ReducesTo [0, 1, 2, 3] S_
  bcast_S_S32x100x32 : S_.BroadcastsInDim S32x100x32 (![] : Fin 0 → Fin S32x100x32.rank)
  reducesTo_S32x100x32_S_d0_1_2 : S32x100x32.ReducesTo [0, 1, 2] S_
  bcast_S_S100x32x64 : S_.BroadcastsInDim S100x32x64 (![] : Fin 0 → Fin S100x32x64.rank)
  reducesTo_S100x32x64_S_d0_1_2 : S100x32x64.ReducesTo [0, 1, 2] S_

variable [Facts]

def fn_part1 {F : FTy → Type} [FloatOps F] (main_v13 : IVec S_ 1) (main_v16 : IVec S100x32x64 1) : IVec S_ 1 :=
  let main_c_5 : IVec S_ 1 := constantI S_ 1 1#1
  let main_v17 : IVec S_ 1 := (fun x v => Host.reduce IntOp.andi x v reducesTo_S100x32x64_S_d0_1_2 h_S_) main_v16 main_c_5
  let main_v18 : IVec S_ 1 := andi main_v13 main_v17
  main_v18

def fn {F : FTy → Type} [FloatOps F] (main_arg0 : FVec F S32x100x64x256 .f32) (main_arg1 : FVec F S32x100x32x256 .f32) (main_arg2 : FVec F S32x100x32 .f32) (main_arg3 : FVec F S100x32x64 .f32) : IVec S_ 1 :=
  let main_v0 : FVec F S32x100x64x256 .f32 := Host.absf main_arg0
  let main_cst : FVec F S_ .f32 := constant S_ .f32 0x7F800000#32
  let main_v1 : FVec F S32x100x64x256 .f32 := broadcastInDim S32x100x64x256 ![] bcast_S_S32x100x64x256 main_cst
  let main_v2 : IVec S32x100x64x256 1 := cmpf .olt main_v0 main_v1
  let main_c : IVec S_ 1 := constantI S_ 1 1#1
  let main_v3 : IVec S_ 1 := (fun x v => Host.reduce IntOp.andi x v reducesTo_S32x100x64x256_S_d0_1_2_3 h_S_) main_v2 main_c
  let main_v4 : FVec F S32x100x32x256 .f32 := Host.absf main_arg1
  let main_cst_0 : FVec F S_ .f32 := constant S_ .f32 0x7F800000#32
  let main_v5 : FVec F S32x100x32x256 .f32 := broadcastInDim S32x100x32x256 ![] bcast_S_S32x100x32x256 main_cst_0
  let main_v6 : IVec S32x100x32x256 1 := cmpf .olt main_v4 main_v5
  let main_c_1 : IVec S_ 1 := constantI S_ 1 1#1
  let main_v7 : IVec S_ 1 := (fun x v => Host.reduce IntOp.andi x v reducesTo_S32x100x32x256_S_d0_1_2_3 h_S_) main_v6 main_c_1
  let main_v8 : IVec S_ 1 := andi main_v3 main_v7
  let main_v9 : FVec F S32x100x32 .f32 := Host.absf main_arg2
  let main_cst_2 : FVec F S_ .f32 := constant S_ .f32 0x7F800000#32
  let main_v10 : FVec F S32x100x32 .f32 := broadcastInDim S32x100x32 ![] bcast_S_S32x100x32 main_cst_2
  let main_v11 : IVec S32x100x32 1 := cmpf .olt main_v9 main_v10
  let main_c_3 : IVec S_ 1 := constantI S_ 1 1#1
  let main_v12 : IVec S_ 1 := (fun x v => Host.reduce IntOp.andi x v reducesTo_S32x100x32_S_d0_1_2 h_S_) main_v11 main_c_3
  let main_v13 : IVec S_ 1 := andi main_v8 main_v12
  let main_v14 : FVec F S100x32x64 .f32 := Host.absf main_arg3
  let main_cst_4 : FVec F S_ .f32 := constant S_ .f32 0x7F800000#32
  let main_v15 : FVec F S100x32x64 .f32 := broadcastInDim S100x32x64 ![] bcast_S_S100x32x64 main_cst_4
  let main_v16 : IVec S100x32x64 1 := cmpf .olt main_v14 main_v15
  fn_part1 (F := F) main_v13 main_v16
-- ==== Kernel.lean ====
abbrev S32x100x64x256 : Shape := ⟨4, ![32, 100, 64, 256]⟩
abbrev S32x100x32x256 : Shape := ⟨4, ![32, 100, 32, 256]⟩
abbrev S32x100x32 : Shape := ⟨3, ![32, 100, 32]⟩
abbrev S100x32x64 : Shape := ⟨3, ![100, 32, 64]⟩
abbrev S100x1x64 : Shape := ⟨3, ![100, 1, 64]⟩
abbrev S100x64 : Shape := ⟨2, ![100, 64]⟩
abbrev S100x32x1 : Shape := ⟨3, ![100, 32, 1]⟩
abbrev S100x32 : Shape := ⟨2, ![100, 32]⟩
abbrev S32x100x256 : Shape := ⟨3, ![32, 100, 256]⟩
abbrev S1x100x64x256 : Shape := ⟨4, ![1, 100, 64, 256]⟩
abbrev S1x100x32x256 : Shape := ⟨4, ![1, 100, 32, 256]⟩
abbrev S1x100x32 : Shape := ⟨3, ![1, 100, 32]⟩
abbrev S1x100x256 : Shape := ⟨3, ![1, 100, 256]⟩
abbrev S100x64x256 : Shape := ⟨3, ![100, 64, 256]⟩
abbrev S100x32x256 : Shape := ⟨3, ![100, 32, 256]⟩
abbrev S100x1x256 : Shape := ⟨3, ![100, 1, 256]⟩
abbrev S100x1x32 : Shape := ⟨3, ![100, 1, 32]⟩
abbrev S100x1 : Shape := ⟨2, ![100, 1]⟩
abbrev S100 : Shape := ⟨1, ![100]⟩
abbrev S100x256 : Shape := ⟨2, ![100, 256]⟩

abbrev nBuf : Space → Nat
  | .hbm => 10
  | .vmem => 12
  | .smem => 0
  | _ => 0

abbrev bufTy : (tb : Table) → Fin (tcTables nBuf tb) → BufTy
  | .hbm, ⟨0, _⟩ => ⟨S32x100x64x256, .f32⟩
  | .hbm, ⟨1, _⟩ => ⟨S32x100x32x256, .f32⟩
  | .hbm, ⟨2, _⟩ => ⟨S32x100x32, .f32⟩
  | .hbm, ⟨3, _⟩ => ⟨S100x32x64, .f32⟩
  | .hbm, ⟨4, _⟩ => ⟨S100x1x64, .f32⟩
  | .hbm, ⟨5, _⟩ => ⟨S100x64, .f32⟩
  | .hbm, ⟨6, _⟩ => ⟨S100x32x1, .f32⟩
  | .hbm, ⟨7, _⟩ => ⟨S100x32, .f32⟩
  | .hbm, ⟨8, _⟩ => ⟨S32x100x256, .f32⟩
  | .hbm, ⟨9, _⟩ => ⟨S32x100x256, .f32⟩
  | .local _ .vmem, ⟨0, _⟩ => ⟨S1x100x64x256, .f32⟩
  | .local _ .vmem, ⟨1, _⟩ => ⟨S1x100x64x256, .f32⟩
  | .local _ .vmem, ⟨2, _⟩ => ⟨S1x100x32x256, .f32⟩
  | .local _ .vmem, ⟨3, _⟩ => ⟨S1x100x32x256, .f32⟩
  | .local _ .vmem, ⟨4, _⟩ => ⟨S1x100x32, .f32⟩
  | .local _ .vmem, ⟨5, _⟩ => ⟨S1x100x32, .f32⟩
  | .local _ .vmem, ⟨6, _⟩ => ⟨S100x64, .f32⟩
  | .local _ .vmem, ⟨7, _⟩ => ⟨S100x32, .f32⟩
  | .local _ .vmem, ⟨8, _⟩ => ⟨S1x100x256, .f32⟩
  | .local _ .vmem, ⟨9, _⟩ => ⟨S1x100x256, .f32⟩
  | .local _ .vmem, ⟨10, _⟩ => ⟨S1x100x256, .f32⟩
  | .local _ .vmem, ⟨11, _⟩ => ⟨S1x100x256, .f32⟩
  | _, _ => ⟨S32x100x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x100x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x100x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x100x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S100x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S100x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x100x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x100x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S100x32x64_S100x1x64_0_31_0 : S100x32x64.Slices ![0, 31, 0] S100x1x64
  shapeCasts_S100x1x64_S100x64 : S100x1x64.ShapeCasts S100x64
  slices_S100x32x64_S100x32x1_0_0_63 : S100x32x64.Slices ![0, 0, 63] S100x32x1
  shapeCasts_S100x32x1_S100x32 : S100x32x1.ShapeCasts S100x32
  inb_S1x100x64x256_S1x100x64x256_0_0_0_0 : ∀ a, (![0, 0, 0, 0] : Fin 4 → Nat) a + S1x100x64x256.size a ≤ S1x100x64x256.size a
  h_S1x100x64x256 : 0 < S1x100x64x256.numel
  shapeCasts_S1x100x64x256_S100x64x256 : S1x100x64x256.ShapeCasts S100x64x256
  inb_S1x100x32x256_S1x100x32x256_0_0_0_0 : ∀ a, (![0, 0, 0, 0] : Fin 4 → Nat) a + S1x100x32x256.size a ≤ S1x100x32x256.size a
  h_S1x100x32x256 : 0 < S1x100x32x256.numel
  shapeCasts_S1x100x32x256_S100x32x256 : S1x100x32x256.ShapeCasts S100x32x256
  bitsLt_bf16_f32 : FTy.bits .bf16 < FTy.bits .f32
  inb_S1x100x32_S1x100x32_0_0_0 : ∀ a, (![0, 0, 0] : Fin 3 → Nat) a + S1x100x32.size a ≤ S1x100x32.size a
  h_S1x100x32 : 0 < S1x100x32.numel
  shapeCasts_S1x100x32_S100x32 : S1x100x32.ShapeCasts S100x32
  inb_S100x64_S100x64_0_0 : ∀ a, (![0, 0] : Fin 2 → Nat) a + S100x64.size a ≤ S100x64.size a
  h_S100x64 : 0 < S100x64.numel
  shapeCasts_S100x64_S100x64 : S100x64.ShapeCasts S100x64
  inb_S100x32_S100x32_0_0 : ∀ a, (![0, 0] : Fin 2 → Nat) a + S100x32.size a ≤ S100x32.size a
  h_S100x32 : 0 < S100x32.numel
  shapeCasts_S100x32_S100x32 : S100x32.ShapeCasts S100x32
  slices_S100x32x256_o0_31_0_S100x1x256 : S100x32x256.Slices ![0, 31, 0] S100x1x256
  slices_S100x64x256_o0_63_0_S100x1x256 : S100x64x256.Slices ![0, 63, 0] S100x1x256
  shapeCasts_S100x1x32_S100x32 : S100x1x32.ShapeCasts S100x32
  slices_S100x32_o0_31_S100x1 : S100x32.Slices ![0, 31] S100x1
  broadcasts_S100x1_S100x64 : S100x1.Broadcasts S100x64
  reduces_S100x64_S100 : S100x64.Reduces [1] S100
  shapeCasts_S100_S100x1 : S100.ShapeCasts S100x1
  reduces_S100x32_S100 : S100x32.Reduces [1] S100
  broadcasts_S100x1_S100x32 : S100x1.Broadcasts S100x32
  shapeCasts_S100x64_S100x1x64 : S100x64.ShapeCasts S100x1x64
  shapeCasts_S100x32_S100x1x32 : S100x32.ShapeCasts S100x1x32
  shapeCasts_S100x1x256_S100x256 : S100x1x256.ShapeCasts S100x256
  inb_S1x100x256_S1x100x256_0_0_0 : ∀ a, (![0, 0, 0] : Fin 3 → Nat) a + S1x100x256.size a ≤ S1x100x256.size a
  h_S1x100x256 : 0 < S1x100x256.numel
  shapeCasts_S1x100x256_S100x256 : S1x100x256.ShapeCasts S100x256
  shapeCasts_S100x256_S1x100x256 : S100x256.ShapeCasts S1x100x256
  dot_S100x1x256_S100x64x256_S100x1x64_2_2_1_1_0_0_wf : DotDims.WF S100x1x256 S100x64x256 S100x1x64 [2] [2] [1] [1] [0] [0]
  dot_S100x1x256_S100x32x256_S100x1x32_2_2_1_1_0_0_wf : DotDims.WF S100x1x256 S100x32x256 S100x1x32 [2] [2] [1] [1] [0] [0]
  dot_S100x1x64_S100x64x256_S100x1x256_2_1_1_2_0_0_wf : DotDims.WF S100x1x64 S100x64x256 S100x1x256 [2] [1] [1] [2] [0] [0]
  dot_S100x1x32_S100x32x256_S100x1x256_2_1_1_2_0_0_wf : DotDims.WF S100x1x32 S100x32x256 S100x1x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x100x64x256.size a ≤ S32x100x64x256.size a
  hwx0_0 : ∀ i : grid0.Coords, EltTy.bits .f32 = 32 ∨ (Rect.block (s := S32x100x64x256) S1x100x64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x100x32x256.size a ≤ S32x100x32x256.size a
  hwx0_1 : ∀ i : grid0.Coords, EltTy.bits .f32 = 32 ∨ (Rect.block (s := S32x100x32x256) S1x100x32x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x100x32.size a ≤ S32x100x32.size a
  hwx0_2 : ∀ i : grid0.Coords, EltTy.bits .f32 = 32 ∨ (Rect.block (s := S32x100x32) S1x100x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x64.size a ≤ S100x64.size a
  hwx0_3 : ∀ i : grid0.Coords, EltTy.bits .f32 = 32 ∨ (Rect.block (s := S100x64) S100x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S100x32.size a ≤ S100x32.size a
  hwx0_4 : ∀ i : grid0.Coords, EltTy.bits .f32 = 32 ∨ (Rect.block (s := S100x32) S100x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x100x256.size a ≤ S32x100x256.size a
  hwx0_5 : ∀ i : grid0.Coords, EltTy.bits .f32 = 32 ∨ (Rect.block (s := S32x100x256) S1x100x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x100x256.size a ≤ S32x100x256.size a
  hwx0_6 : ∀ i : grid0.Coords, EltTy.bits .f32 = 32 ∨ (Rect.block (s := S32x100x256) S1x100x256.size (cc0_transform_6 i) (hinb0_6 i)).WholeWords (EltTy.packing .f32)

variable [Facts₀]

def dot_S100x1x256_S100x64x256_S100x1x64_2_2_1_1_0_0 : DotDims S100x1x256 S100x64x256 S100x1x64 where
  lhsContracting := [2]
  rhsContracting := [2]
  lhsNonContracting := [1]
  rhsNonContracting := [1]
  lhsBatch := [0]
  rhsBatch := [0]
  wf := dot_S100x1x256_S100x64x256_S100x1x64_2_2_1_1_0_0_wf
def dot_S100x1x256_S100x32x256_S100x1x32_2_2_1_1_0_0 : DotDims S100x1x256 S100x32x256 S100x1x32 where
  lhsContracting := [2]
  rhsContracting := [2]
  lhsNonContracting := [1]
  rhsNonContracting := [1]
  lhsBatch := [0]
  rhsBatch := [0]
  wf := dot_S100x1x256_S100x32x256_S100x1x32_2_2_1_1_0_0_wf
def dot_S100x1x64_S100x64x256_S100x1x256_2_1_1_2_0_0 : DotDims S100x1x64 S100x64x256 S100x1x256 where
  lhsContracting := [2]
  rhsContracting := [1]
  lhsNonContracting := [1]
  rhsNonContracting := [2]
  lhsBatch := [0]
  rhsBatch := [0]
  wf := dot_S100x1x64_S100x64x256_S100x1x256_2_1_1_2_0_0_wf
def dot_S100x1x32_S100x32x256_S100x1x256_2_1_1_2_0_0 : DotDims S100x1x32 S100x32x256 S100x1x256 where
  lhsContracting := [2]
  rhsContracting := [1]
  lhsNonContracting := [1]
  rhsNonContracting := [2]
  lhsBatch := [0]
  rhsBatch := [0]
  wf := dot_S100x1x32_S100x32x256_S100x1x256_2_1_1_2_0_0_wf

abbrev win0_0 : Pipeline.Window sig grid0 :=
  Pipeline.Window.ofSpec (Memref.whole main_arg0) S1x100x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x100x32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x100x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S100x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S100x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S1x100x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S1x100x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x100x64x256 : Shape := ⟨4, ![32, 100, 64, 256]⟩
abbrev S32x100x32x256 : Shape := ⟨4, ![32, 100, 32, 256]⟩
abbrev S32x100x32 : Shape := ⟨3, ![32, 100, 32]⟩
abbrev S100x32x64 : Shape := ⟨3, ![100, 32, 64]⟩
abbrev S32x100x32x64 : Shape := ⟨4, ![32, 100, 32, 64]⟩
abbrev S32x100x32x1 : Shape := ⟨4, ![32, 100, 32, 1]⟩
abbrev S1x100x32x64 : Shape := ⟨4, ![1, 100, 32, 64]⟩
abbrev S_ : Shape := ⟨0, ![]⟩
abbrev S32x100x64 : Shape := ⟨3, ![32, 100, 64]⟩
abbrev S32x100x1x64 : Shape := ⟨4, ![32, 100, 1, 64]⟩
abbrev S32x100x64x32 : Shape := ⟨4, ![32, 100, 64, 32]⟩
abbrev S32x100x1x256 : Shape := ⟨4, ![32, 100, 1, 256]⟩
abbrev S32x100x256 : Shape := ⟨3, ![32, 100, 256]⟩

abbrev nBuf : Space → Nat
  | .hbm => 52
  | .vmem => 0
  | .smem => 0
  | _ => 0

abbrev bufTy : (tb : Table) → Fin (tcTables nBuf tb) → BufTy
  | .hbm, ⟨0, _⟩ => ⟨S32x100x64x256, .f32⟩
  | .hbm, ⟨1, _⟩ => ⟨S32x100x32x256, .f32⟩
  | .hbm, ⟨2, _⟩ => ⟨S32x100x32, .f32⟩
  | .hbm, ⟨3, _⟩ => ⟨S100x32x64, .f32⟩
  | .hbm, ⟨4, _⟩ => ⟨S32x100x32x64, .f32⟩
  | .hbm, ⟨5, _⟩ => ⟨S32x100x32x1, .f32⟩
  | .hbm, ⟨6, _⟩ => ⟨S32x100x32x64, .f32⟩
  | .hbm, ⟨7, _⟩ => ⟨S32x100x32x64, .f32⟩
  | .hbm, ⟨8, _⟩ => ⟨S1x100x32x64, .f32⟩
  | .hbm, ⟨9, _⟩ => ⟨S32x100x32x64, .f32⟩
  | .hbm, ⟨10, _⟩ => ⟨S32x100x32x64, .f32⟩
  | .hbm, ⟨11, _⟩ => ⟨S_, .f32⟩
  | .hbm, ⟨12, _⟩ => ⟨S32x100x32x64, .f32⟩
  | .hbm, ⟨13, _⟩ => ⟨S32x100x32x64, .i1⟩
  | .hbm, ⟨14, _⟩ => ⟨S_, .f32⟩
  | .hbm, ⟨15, _⟩ => ⟨S32x100x32x64, .f32⟩
  | .hbm, ⟨16, _⟩ => ⟨S32x100x32x64, .f32⟩
  | .hbm, ⟨17, _⟩ => ⟨S_, .f32⟩
  | .hbm, ⟨18, _⟩ => ⟨S32x100x32, .f32⟩
  | .hbm, ⟨19, _⟩ => ⟨S_, .f32⟩
  | .hbm, ⟨20, _⟩ => ⟨S32x100x32, .f32⟩
  | .hbm, ⟨21, _⟩ => ⟨S32x100x32, .f32⟩
  | .hbm, ⟨22, _⟩ => ⟨S32x100x32x1, .f32⟩
  | .hbm, ⟨23, _⟩ => ⟨S32x100x32x64, .f32⟩
  | .hbm, ⟨24, _⟩ => ⟨S32x100x32x64, .f32⟩
  | .hbm, ⟨25, _⟩ => ⟨S32x100x32x64, .f32⟩
  | .hbm, ⟨26, _⟩ => ⟨S_, .f32⟩
  | .hbm, ⟨27, _⟩ => ⟨S32x100x32, .f32⟩
  | .hbm, ⟨28, _⟩ => ⟨S32x100x32x1, .f32⟩
  | .hbm, ⟨29, _⟩ => ⟨S32x100x32x64, .f32⟩
  | .hbm, ⟨30, _⟩ => ⟨S32x100x32x64, .f32⟩
  | .hbm, ⟨31, _⟩ => ⟨S32x100x32x256, .f32⟩
  | .hbm, ⟨32, _⟩ => ⟨S_, .f32⟩
  | .hbm, ⟨33, _⟩ => ⟨S32x100x64, .f32⟩
  | .hbm, ⟨34, _⟩ => ⟨S_, .f32⟩
  | .hbm, ⟨35, _⟩ => ⟨S32x100x64, .f32⟩
  | .hbm, ⟨36, _⟩ => ⟨S32x100x64, .f32⟩
  | .hbm, ⟨37, _⟩ => ⟨S32x100x1x64, .f32⟩
  | .hbm, ⟨38, _⟩ => ⟨S32x100x32x64, .f32⟩
  | .hbm, ⟨39, _⟩ => ⟨S32x100x32x64, .f32⟩
  | .hbm, ⟨40, _⟩ => ⟨S32x100x32x64, .f32⟩
  | .hbm, ⟨41, _⟩ => ⟨S_, .f32⟩
  | .hbm, ⟨42, _⟩ => ⟨S32x100x64, .f32⟩
  | .hbm, ⟨43, _⟩ => ⟨S32x100x1x64, .f32⟩
  | .hbm, ⟨44, _⟩ => ⟨S32x100x32x64, .f32⟩
  | .hbm, ⟨45, _⟩ => ⟨S32x100x32x64, .f32⟩
  | .hbm, ⟨46, _⟩ => ⟨S32x100x64x32, .f32⟩
  | .hbm, ⟨47, _⟩ => ⟨S32x100x64x256, .f32⟩
  | .hbm, ⟨48, _⟩ => ⟨S32x100x1x256, .f32⟩
  | .hbm, ⟨49, _⟩ => ⟨S32x100x256, .f32⟩
  | .hbm, ⟨50, _⟩ => ⟨S32x100x1x256, .f32⟩
  | .hbm, ⟨51, _⟩ => ⟨S32x100x256, .f32⟩
  | _, _ => ⟨S32x100x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  bcast_S32x100x32_S32x100x32x1_0_1_2 : S32x100x32.BroadcastsInDim S32x100x32x1 (![0, 1, 2] : Fin 3 → Fin S32x100x32x1.rank)
  bcast_S32x100x32x1_S32x100x32x64_0_1_2_3 : S32x100x32x1.BroadcastsInDim S32x100x32x64 (![0, 1, 2, 3] : Fin 4 → Fin S32x100x32x64.rank)
  bcast_S100x32x64_S1x100x32x64_1_2_3 : S100x32x64.BroadcastsInDim S1x100x32x64 (![1, 2, 3] : Fin 3 → Fin S1x100x32x64.rank)
  bcast_S1x100x32x64_S32x100x32x64_0_1_2_3 : S1x100x32x64.BroadcastsInDim S32x100x32x64 (![0, 1, 2, 3] : Fin 4 → Fin S32x100x32x64.rank)
  bcast_S_S32x100x32x64 : S_.BroadcastsInDim S32x100x32x64 (![] : Fin 0 → Fin S32x100x32x64.rank)
  reducesTo_S32x100x32x64_S32x100x32_d3 : S32x100x32x64.ReducesTo [3] S32x100x32
  h_S_ : 0 < S_.numel
  bcast_S_S32x100x32 : S_.BroadcastsInDim S32x100x32 (![] : Fin 0 → Fin S32x100x32.rank)
  reducesTo_S32x100x32x64_S32x100x64_d2 : S32x100x32x64.ReducesTo [2] S32x100x64
  bcast_S_S32x100x64 : S_.BroadcastsInDim S32x100x64 (![] : Fin 0 → Fin S32x100x64.rank)
  bcast_S32x100x64_S32x100x1x64_0_1_3 : S32x100x64.BroadcastsInDim S32x100x1x64 (![0, 1, 3] : Fin 3 → Fin S32x100x1x64.rank)
  bcast_S32x100x1x64_S32x100x32x64_0_1_2_3 : S32x100x1x64.BroadcastsInDim S32x100x32x64 (![0, 1, 2, 3] : Fin 4 → Fin S32x100x32x64.rank)
  transposes_S32x100x32x64_S32x100x64x32_0_1_3_2 : S32x100x32x64.Transposes [0, 1, 3, 2] S32x100x64x32
  slices_S32x100x32x256_S32x100x1x256_0_0_31_0 : S32x100x32x256.Slices ![0, 0, 31, 0] S32x100x1x256
  shapeCasts_S32x100x1x256_S32x100x256 : S32x100x1x256.ShapeCasts S32x100x256
  slices_S32x100x64x256_S32x100x1x256_0_0_63_0 : S32x100x64x256.Slices ![0, 0, 63, 0] S32x100x1x256
  dot_S32x100x32x256_S32x100x64x256_S32x100x32x64_3_3_2_2_01_01_wf : DotDims.WF S32x100x32x256 S32x100x64x256 S32x100x32x64 [3] [3] [2] [2] [0, 1] [0, 1]
  dot_S32x100x32x64_S32x100x64x256_S32x100x32x256_3_2_2_3_01_01_wf : DotDims.WF S32x100x32x64 S32x100x64x256 S32x100x32x256 [3] [2] [2] [3] [0, 1] [0, 1]
  dot_S32x100x64x32_S32x100x32x256_S32x100x64x256_3_2_2_3_01_01_wf : DotDims.WF S32x100x64x32 S32x100x32x256 S32x100x64x256 [3] [2] [2] [3] [0, 1] [0, 1]

variable [Facts₀]

def dot_S32x100x32x256_S32x100x64x256_S32x100x32x64_3_3_2_2_01_01 : DotDims S32x100x32x256 S32x100x64x256 S32x100x32x64 where
  lhsContracting := [3]
  rhsContracting := [3]
  lhsNonContracting := [2]
  rhsNonContracting := [2]
  lhsBatch := [0, 1]
  rhsBatch := [0, 1]
  wf := dot_S32x100x32x256_S32x100x64x256_S32x100x32x64_3_3_2_2_01_01_wf
def dot_S32x100x32x64_S32x100x64x256_S32x100x32x256_3_2_2_3_01_01 : DotDims S32x100x32x64 S32x100x64x256 S32x100x32x256 where
  lhsContracting := [3]
  rhsContracting := [2]
  lhsNonContracting := [2]
  rhsNonContracting := [3]
  lhsBatch := [0, 1]
  rhsBatch := [0, 1]
  wf := dot_S32x100x32x64_S32x100x64x256_S32x100x32x256_3_2_2_3_01_01_wf
def dot_S32x100x64x32_S32x100x32x256_S32x100x64x256_3_2_2_3_01_01 : DotDims S32x100x64x32 S32x100x32x256 S32x100x64x256 where
  lhsContracting := [3]
  rhsContracting := [2]
  lhsNonContracting := [2]
  rhsNonContracting := [3]
  lhsBatch := [0, 1]
  rhsBatch := [0, 1]
  wf := dot_S32x100x64x32_S32x100x32x256_S32x100x64x256_3_2_2_3_01_01_wf

class Facts : Prop extends Facts₀ where

variable [Facts]
-- ==== Proof.Attend.lean ====
/-
  One attention read-out over the extended reals: a finite family of scores `x`, its weights
  `exp (x i - max x) / Σ_j exp (x j - max x)` (a softmax shifted by the family's maximum), and the
  weighted sum `Σ_i weight x i · v i` of a family of values. A score that is exactly zero is first
  replaced by the large negative word `-1e9` (`fill`). Everything here is stated on `EReal` with the
  exact operations; no program is imported.
-/
import Idealize.ShloMosaic.PureOps.Ideal
import Idealize.ShloMosaic.PureOps.Ideal.Laws
import Idealize.ShloMosaic.Lib.ValueIdx

noncomputable section

namespace Cert.Attend

open Idealize.ShloMosaic Idealize.ShloMosaic.ValueIdx

/-- The f32 words the two programs share: `0.0`, `-1e9` and `-∞`. -/
abbrev zeroW : EReal := Ideal.ofBits .f32 0x00000000#32
abbrev negBig : EReal := Ideal.ofBits .f32 0xCE6E6B28#32
abbrev negInf : EReal := Ideal.ofBits .f32 0xFF800000#32

/-- The word `0xFF800000` denotes `-∞`, the least extended real. -/
theorem negInf_eq_bot : negInf = ⊥ := by
  simp [negInf, Ideal.ofBits, Ideal.ieee]

/-- The word `0x00000000` denotes zero. -/
theorem zeroW_eq : zeroW = 0 := Ideal.ofBits_zero_f32

/-- A score that compares equal to zero is replaced by `-1e9`. -/
def fill (x : EReal) : EReal := Scalar.select (Ideal.cmp .oeq x zeroW) negBig x

/-- The maximum of a finite family, folded from `-∞`. -/
def top {n : Nat} (x : Fin n → EReal) : EReal := (Finset.univ : Finset (Fin n)).fold max negInf x

/-- Folding from `-∞` and then taking the maximum with `-∞` once more changes nothing. -/
theorem max_negInf_top {n : Nat} (x : Fin n → EReal) : max negInf (top x) = top x := by
  rw [negInf_eq_bot]; exact max_bot_left _

/-- The shifted exponential of entry `i`. -/
def ex {n : Nat} (x : Fin n → EReal) (i : Fin n) : EReal := Ideal.exp (x i - top x)

/-- The softmax weight of entry `i`: its shifted exponential over the sum of them all. -/
def weight {n : Nat} (x : Fin n → EReal) (i : Fin n) : EReal := Ideal.div (ex x i) (∑ j, ex x j)

/-- The read-out: the values weighted by the scores' softmax. -/
def attend {n : Nat} (x v : Fin n → EReal) : EReal := ∑ i, weight x i * v i

end Cert.Attend

end
-- ==== Proof.Spec.lean ====
/-
  What both programs compute, index by index, as one function of the four argument arrays
  (image embeddings [32,100,64,256], title embeddings [32,100,32,256], title mask [32,100,32],
  adapter [100,32,64]).  For batch `b` and sequence position `s`:

    corr t i  = Σ_k title[b,s,t,k] · img[b,s,i,k]
    score t i = fill (adapter[s,t,i] · (corr t i · mask[b,s,t]))

  The first result, at feature `d`, attends over the 64 image tokens with the scores of the LAST
  title token (t = 31) and reads out the image embeddings; the second attends over the 32 title
  tokens with the scores against the LAST image token (i = 63) and reads out the title embeddings.
-/
import proofs.«102525_j23347442221612_2_alg».proof.Proof.Attend

noncomputable section

namespace Cert.Spec

open Idealize.ShloMosaic Idealize.ShloMosaic.ValueIdx Cert.Attend

abbrev ImgArr := (⟨4, ![32, 100, 64, 256]⟩ : Shape).Idx → EReal
abbrev TtlArr := (⟨4, ![32, 100, 32, 256]⟩ : Shape).Idx → EReal
abbrev MskArr := (⟨3, ![32, 100, 32]⟩ : Shape).Idx → EReal
abbrev AdpArr := (⟨3, ![100, 32, 64]⟩ : Shape).Idx → EReal
abbrev OutArr := (⟨3, ![32, 100, 256]⟩ : Shape).Idx → EReal

variable (img : ImgArr) (ttl : TtlArr) (msk : MskArr) (adp : AdpArr)

/-- The correlation of title token `t` with image token `i`. -/
def corr (b : Fin 32) (s : Fin 100) (t : Fin 32) (i : Fin 64) : EReal :=
  ∑ k : Fin 256, ttl (ix4 b s t k) * img (ix4 b s i k)

/-- The masked, adapted and zero-filled score of the pair `(t, i)`. -/
def score (b : Fin 32) (s : Fin 100) (t : Fin 32) (i : Fin 64) : EReal :=
  fill (adp (ix3 s t i) * (corr img ttl b s t i * msk (ix3 b s t)))

/-- The last title token and the last image token. -/
abbrev tLast : Fin 32 := ⟨31, by decide⟩
abbrev iLast : Fin 64 := ⟨63, by decide⟩

/-- First result: the last title token's view of the images. -/
def outImg : OutArr := fun j =>
  attend (fun i : Fin 64 => score img ttl msk adp (j 0) (j 1) tLast i) (fun i : Fin 64 => img (ix4 (j 0) (j 1) i (j 2)))

/-- Second result: the last image token's view of the titles. -/
def outTtl : OutArr := fun j =>
  attend (fun t : Fin 32 => score img ttl msk adp (j 0) (j 1) t iLast) (fun t : Fin 32 => ttl (ix4 (j 0) (j 1) t (j 2)))

end Cert.Spec

end
-- ==== Proof.RefImg.lean ====
/-
  The reference's first result read at an index.  Its @main computes the whole 32×64 score matrix of
  every (batch, position), both softmaxes of it, and both weighted sums; the first result keeps row
  t = 31 of the image-axis softmax's read-out.  A softmax over the last axis at (b, s, t, ·) depends on
  that row of scores only, so the result at (b, s, d) is the read-out of Spec.lean over the 64 image
  tokens with the last title token's scores.  Two small laws join the texts: the maximum with `-∞`
  of a maximum already folded from `-∞` is that maximum, and `0 + Σ = Σ`.
-/
import proofs.«102525_j23347442221612_2_alg».proof.Proof.Gen.ReferenceIdeal.Read
import proofs.«102525_j23347442221612_2_alg».proof.Proof.Spec

noncomputable section

namespace Cert.RefImg

open Cert.ReferenceIdeal Cert.ReferenceIdeal.Gen Cert.ReferenceIdeal.Read
open Idealize.ShloMosaic Idealize.ShloMosaic.ValueIdx Cert.Attend Cert.Spec

variable (img : (⟨S32x100x64x256, .f32⟩ : BufTy).Contents (Elt Ideal)) (ttl : (⟨S32x100x32x256, .f32⟩ : BufTy).Contents (Elt Ideal))
  (msk : (⟨S32x100x32, .f32⟩ : BufTy).Contents (Elt Ideal)) (adp : (⟨S100x32x64, .f32⟩ : BufTy).Contents (Elt Ideal))

/-- The filled score tensor at (b, s, t, i) is Spec's `score`. -/
theorem scores_at (b : Fin 32) (s : Fin 100) (t : Fin 32) (i : Fin 64) :
    val_main_v9 (F := Ideal) img ttl msk adp (ix4 b s t i) = score img ttl msk adp b s t i := by
  have e1 : idx_main_v4 (idx_main_v5 (ix4 b s t i)) = ix3 s t i := by
    funext a; match a with | ⟨0, _⟩ => rfl | ⟨1, _⟩ => rfl | ⟨2, _⟩ => rfl
  have e2 : idx_main_v1 (idx_main_v2 (ix4 b s t i)) = ix3 b s t := by
    funext a; match a with | ⟨0, _⟩ => rfl | ⟨1, _⟩ => rfl | ⟨2, _⟩ => rfl
  have e3 : ∀ k : Fin 256, lidx_main_v0 (ix4 b s t i) k = ix4 b s t k := fun k => by
    funext a; match a with | ⟨0, _⟩ => rfl | ⟨1, _⟩ => rfl | ⟨2, _⟩ => rfl | ⟨3, _⟩ => rfl
  have e4 : ∀ k : Fin 256, ridx_main_v0 (ix4 b s t i) k = ix4 b s i k := fun k => by
    funext a; match a with | ⟨0, _⟩ => rfl | ⟨1, _⟩ => rfl | ⟨2, _⟩ => rfl | ⟨3, _⟩ => rfl
  rw [val_main_v9_apply, val_main_v8_apply, val_main_call0_v0_apply, val_main_cst_0_apply, val_main_v7_apply,
    val_main_cst_apply, val_main_v6_apply, val_main_v5_apply, val_main_v4_apply, val_main_v3_apply, val_main_v2_apply,
    val_main_v1_apply, val_main_v0_apply, e1, e2]
  simp only [e3, e4]
  rfl

/-- The fact that names the coordinate a reduction over the last axis re-inserts. -/
theorem hRow : S32x100x32x64.Reduces [3] S32x100x32 := by decide

theorem lift_row (b : Fin 32) (s : Fin 100) (t : Fin 32) (i : Fin 64) :
    hRow.lift (ix3 b s t) i = ix4 b s t i := by
  funext a; apply Fin.ext
  match a with | ⟨0, _⟩ => rfl | ⟨1, _⟩ => rfl | ⟨2, _⟩ => rfl | ⟨3, _⟩ => rfl

/-- The row maximum (after the extra maximum with `-∞`) is the family's `top`. -/
theorem rowmax_at (b : Fin 32) (s : Fin 100) (t : Fin 32) :
    val_main_v12 (F := Ideal) img ttl msk adp (ix3 b s t) = top (fun i : Fin 64 => score img ttl msk adp b s t i) := by
  rw [val_main_v12_apply, val_main_v11_apply, val_main_cst_2_apply]
  unfold val_main_v10
  rw [Host.reduce_eq_fold_single FloatOps.maximumf _ _ reducesTo_S32x100x32x64_S32x100x32_d3 hRow h_S_ (ix3 b s t)]
  have e : (val_main_v9 (F := Ideal) img ttl msk adp ∘ hRow.lift (ix3 b s t)) = fun i : Fin 64 => score img ttl msk adp b s t i := by
    funext i
    exact (congrArg (val_main_v9 (F := Ideal) img ttl msk adp) (lift_row b s t i)).trans (scores_at img ttl msk adp b s t i)
  rw [e]
  exact max_negInf_top _

/-- The shifted exponential at (b, s, t, i). -/
theorem exp_at (b : Fin 32) (s : Fin 100) (t : Fin 32) (i : Fin 64) :
    val_main_v16 (F := Ideal) img ttl msk adp (ix4 b s t i) = ex (fun i' : Fin 64 => score img ttl msk adp b s t i') i := by
  have e1 : idx_main_v13 (idx_main_v14 (ix4 b s t i)) = ix3 b s t := by
    funext a; match a with | ⟨0, _⟩ => rfl | ⟨1, _⟩ => rfl | ⟨2, _⟩ => rfl
  rw [val_main_v16_apply, val_main_v15_apply, val_main_v14_apply, val_main_v13_apply, e1, rowmax_at, scores_at]
  rfl

/-- The row's sum of exponentials. -/
theorem sum_at (b : Fin 32) (s : Fin 100) (t : Fin 32) :
    val_main_v17 (F := Ideal) img ttl msk adp (ix3 b s t) = ∑ i : Fin 64, ex (fun i' : Fin 64 => score img ttl msk adp b s t i') i := by
  have e1 : ∀ k : Fin 64, idx_main_v17 (ix3 b s t) k = ix4 b s t k := fun k => by
    funext a; match a with | ⟨0, _⟩ => rfl | ⟨1, _⟩ => rfl | ⟨2, _⟩ => rfl | ⟨3, _⟩ => rfl
  rw [val_main_v17_apply, val_main_cst_3_apply]
  simp only [e1, exp_at]
  show zeroW + _ = _
  rw [zeroW_eq, zero_add]

/-- The softmax weight at (b, s, t, i). -/
theorem weight_at (b : Fin 32) (s : Fin 100) (t : Fin 32) (i : Fin 64) :
    val_main_v20 (F := Ideal) img ttl msk adp (ix4 b s t i) = weight (fun i' : Fin 64 => score img ttl msk adp b s t i') i := by
  have e1 : idx_main_v18 (idx_main_v19 (ix4 b s t i)) = ix3 b s t := by
    funext a; match a with | ⟨0, _⟩ => rfl | ⟨1, _⟩ => rfl | ⟨2, _⟩ => rfl
  rw [val_main_v20_apply, val_main_v19_apply, val_main_v18_apply, e1, sum_at, exp_at]
  rfl

/-- The first result at (b, s, d). -/
theorem result_at (b : Fin 32) (s : Fin 100) (d : Fin 256) :
    val_main_v36 (F := Ideal) img ttl msk adp (ix3 b s d) = outImg img ttl msk adp (ix3 b s d) := by
  have e1 : idx_main_v35 (idx_main_v36 (ix3 b s d)) = ix4 b s tLast d := by
    have hb := b.isLt; have hs := s.isLt; have hd := d.isLt
    funext a; apply Fin.ext
    match a with
    | ⟨0, _⟩ => show ((b.val * 100 + s.val) * 256 + d.val) / 25600 = b.val; omega
    | ⟨1, _⟩ => show ((b.val * 100 + s.val) * 256 + d.val) / 256 % 100 = s.val; omega
    | ⟨2, _⟩ => rfl
    | ⟨3, _⟩ => show ((b.val * 100 + s.val) * 256 + d.val) % 256 = d.val; omega
  have e2 : ∀ k : Fin 64, lidx_main_v21 (ix4 b s tLast d) k = ix4 b s tLast k := fun k => by
    funext a; match a with | ⟨0, _⟩ => rfl | ⟨1, _⟩ => rfl | ⟨2, _⟩ => rfl | ⟨3, _⟩ => rfl
  have e3 : ∀ k : Fin 64, ridx_main_v21 (ix4 b s tLast d) k = ix4 b s k d := fun k => by
    funext a; match a with | ⟨0, _⟩ => rfl | ⟨1, _⟩ => rfl | ⟨2, _⟩ => rfl | ⟨3, _⟩ => rfl
  rw [val_main_v36_apply, val_main_v35_apply, e1, val_main_v21_apply]
  simp only [e2, e3, weight_at]
  rfl

/-- The first result is Spec's `outImg`. -/
theorem result_eq : val_main_v36 (F := Ideal) img ttl msk adp = outImg img ttl msk adp := by
  funext j
  rw [eq_ix3 j]
  exact result_at img ttl msk adp _ _ _

end Cert.RefImg

end
-- ==== Proof.RefTtl.lean ====
/-
  The reference's second result read at an index.  The title-axis softmax at (b, s, ·, i) depends on
  column i of the score matrix only; the result keeps column i = 63, transposed, and reads out the
  title embeddings.  So at (b, s, d) it is the read-out of Spec.lean over the 32 title tokens with
  the scores against the last image token.  The same two laws as for the first result join the
  texts (`max (-∞) m = m` for a maximum folded from `-∞`; `0 + Σ = Σ`).
-/
import proofs.«102525_j23347442221612_2_alg».proof.Proof.RefImg

noncomputable section

namespace Cert.RefTtl

open Cert.ReferenceIdeal Cert.ReferenceIdeal.Gen Cert.ReferenceIdeal.Read
open Idealize.ShloMosaic Idealize.ShloMosaic.ValueIdx Cert.Attend Cert.Spec

variable (img : (⟨S32x100x64x256, .f32⟩ : BufTy).Contents (Elt Ideal)) (ttl : (⟨S32x100x32x256, .f32⟩ : BufTy).Contents (Elt Ideal))
  (msk : (⟨S32x100x32, .f32⟩ : BufTy).Contents (Elt Ideal)) (adp : (⟨S100x32x64, .f32⟩ : BufTy).Contents (Elt Ideal))

/-- The fact that names the coordinate a reduction over the title axis re-inserts. -/
theorem hCol : S32x100x32x64.Reduces [2] S32x100x64 := by decide

theorem lift_col (b : Fin 32) (s : Fin 100) (i : Fin 64) (t : Fin 32) :
    hCol.lift (ix3 b s i) t = ix4 b s t i := by
  funext a; apply Fin.ext
  match a with | ⟨0, _⟩ => rfl | ⟨1, _⟩ => rfl | ⟨2, _⟩ => rfl | ⟨3, _⟩ => rfl

/-- The column maximum (after the extra maximum with `-∞`) is the family's `top`. -/
theorem colmax_at (b : Fin 32) (s : Fin 100) (i : Fin 64) :
    val_main_v24 (F := Ideal) img ttl msk adp (ix3 b s i) = top (fun t : Fin 32 => score img ttl msk adp b s t i) := by
  rw [val_main_v24_apply, val_main_v23_apply, val_main_cst_5_apply]
  unfold val_main_v22
  rw [Host.reduce_eq_fold_single FloatOps.maximumf _ _ reducesTo_S32x100x32x64_S32x100x64_d2 hCol h_S_ (ix3 b s i)]
  have e : (val_main_v9 (F := Ideal) img ttl msk adp ∘ hCol.lift (ix3 b s i)) = fun t : Fin 32 => score img ttl msk adp b s t i := by
    funext t
    exact (congrArg (val_main_v9 (F := Ideal) img ttl msk adp) (lift_col b s i t)).trans (Cert.RefImg.scores_at img ttl msk adp b s t i)
  rw [e]
  exact max_negInf_top _

/-- The shifted exponential at (b, s, t, i), shifted by the COLUMN's maximum. -/
theorem exp_at (b : Fin 32) (s : Fin 100) (t : Fin 32) (i : Fin 64) :
    val_main_v28 (F := Ideal) img ttl msk adp (ix4 b s t i) = ex (fun t' : Fin 32 => score img ttl msk adp b s t' i) t := by
  have e1 : idx_main_v25 (idx_main_v26 (ix4 b s t i)) = ix3 b s i := by
    funext a; match a with | ⟨0, _⟩ => rfl | ⟨1, _⟩ => rfl | ⟨2, _⟩ => rfl
  rw [val_main_v28_apply, val_main_v27_apply, val_main_v26_apply, val_main_v25_apply, e1, colmax_at, Cert.RefImg.scores_at]
  rfl

/-- The column's sum of exponentials. -/
theorem sum_at (b : Fin 32) (s : Fin 100) (i : Fin 64) :
    val_main_v29 (F := Ideal) img ttl msk adp (ix3 b s i) = ∑ t : Fin 32, ex (fun t' : Fin 32 => score img ttl msk adp b s t' i) t := by
  have e1 : ∀ k : Fin 32, idx_main_v29 (ix3 b s i) k = ix4 b s k i := fun k => by
    funext a; match a with | ⟨0, _⟩ => rfl | ⟨1, _⟩ => rfl | ⟨2, _⟩ => rfl | ⟨3, _⟩ => rfl
  rw [val_main_v29_apply, val_main_cst_6_apply]
  simp only [e1, exp_at]
  show zeroW + _ = _
  rw [zeroW_eq, zero_add]

/-- The softmax weight at (b, s, t, i). -/
theorem weight_at (b : Fin 32) (s : Fin 100) (t : Fin 32) (i : Fin 64) :
    val_main_v32 (F := Ideal) img ttl msk adp (ix4 b s t i) = weight (fun t' : Fin 32 => score img ttl msk adp b s t' i) t := by
  have e1 : idx_main_v30 (idx_main_v31 (ix4 b s t i)) = ix3 b s i := by
    funext a; match a with | ⟨0, _⟩ => rfl | ⟨1, _⟩ => rfl | ⟨2, _⟩ => rfl
  rw [val_main_v32_apply, val_main_v31_apply, val_main_v30_apply, e1, sum_at, exp_at]
  rfl

/-- The second result at (b, s, d). -/
theorem result_at (b : Fin 32) (s : Fin 100) (d : Fin 256) :
    val_main_v38 (F := Ideal) img ttl msk adp (ix3 b s d) = outTtl img ttl msk adp (ix3 b s d) := by
  have e1 : idx_main_v37 (idx_main_v38 (ix3 b s d)) = ix4 b s iLast d := by
    have hb := b.isLt; have hs := s.isLt; have hd := d.isLt
    funext a; apply Fin.ext
    match a with
    | ⟨0, _⟩ => show ((b.val * 100 + s.val) * 256 + d.val) / 25600 = b.val; omega
    | ⟨1, _⟩ => show ((b.val * 100 + s.val) * 256 + d.val) / 256 % 100 = s.val; omega
    | ⟨2, _⟩ => rfl
    | ⟨3, _⟩ => show ((b.val * 100 + s.val) * 256 + d.val) % 256 = d.val; omega
  have e2 : ∀ k : Fin 32, idx_main_v33 (lidx_main_v34 (ix4 b s iLast d) k) = ix4 b s k iLast := fun k => by
    funext a; match a with | ⟨0, _⟩ => rfl | ⟨1, _⟩ => rfl | ⟨2, _⟩ => rfl | ⟨3, _⟩ => rfl
  have e3 : ∀ k : Fin 32, ridx_main_v34 (ix4 b s iLast d) k = ix4 b s k d := fun k => by
    funext a; match a with | ⟨0, _⟩ => rfl | ⟨1, _⟩ => rfl | ⟨2, _⟩ => rfl | ⟨3, _⟩ => rfl
  rw [val_main_v38_apply, val_main_v37_apply, e1, val_main_v34_apply]
  simp only [val_main_v33_apply, e2, e3, weight_at]
  rfl

/-- The second result is Spec's `outTtl`. -/
theorem result_eq : val_main_v38 (F := Ideal) img ttl msk adp = outTtl img ttl msk adp := by
  funext j
  rw [eq_ix3 j]
  exact result_at img ttl msk adp _ _ _

end Cert.RefTtl

end
-- ==== Proof.KerDots.lean ====
/-
  The body's four matrix products, each read at an output index as a plain sum over the one
  contracted axis.  All four are batched over the sequence position s (axis 0 of both operands and
  of the result) and have a unit row axis:
    corrRow : [100,1,256] × [100,64,256] → [100,1,64]    (title row against every image token)
    corrCol : [100,1,256] × [100,32,256] → [100,1,32]    (image row against every title token)
    readImg : [100,1,64]  × [100,64,256] → [100,1,256]   (weights times image embeddings)
    readTtl : [100,1,32]  × [100,32,256] → [100,1,256]   (weights times title embeddings)
  For each: where the dot's dimension numbers put the output's coordinates and the contraction
  coordinate in each operand's index, and then the product into the zero accumulator as that sum.
-/
import proofs.«102525_j23347442221612_2_alg».proof.Proof.Gen.KernelIdeal
import Idealize.ShloMosaic.Lib.ValueIdx
import Idealize.ShloMosaic.PureOps.Ideal.Laws

noncomputable section

namespace Cert.KerDots

open Cert.KernelIdeal Cert.KernelIdeal.Gen Cert.KernelIdeal.Facts₀
open Idealize.ShloMosaic Idealize.ShloMosaic.ValueIdx

/-! ### `corrRow`: out[s,u,n] = Σ_k lhs[s,u,k] · rhs[s,n,k] -/

theorem corrRow_l0 (j : S100x1x64.Idx) (q : dot_S100x1x256_S100x64x256_S100x1x64_2_2_1_1_0_0.contr.Idx) : (dot_S100x1x256_S100x64x256_S100x1x64_2_2_1_1_0_0.lhsIdx j q 0).val = (j 0).val := by
  unfold DotDims.lhsIdx
  rw [dif_pos (show (0 : Fin S100x1x256.rank) ∈ dot_S100x1x256_S100x64x256_S100x1x64_2_2_1_1_0_0.lhsBatch by decide)]
  rfl
theorem corrRow_l1 (j : S100x1x64.Idx) (q : dot_S100x1x256_S100x64x256_S100x1x64_2_2_1_1_0_0.contr.Idx) : (dot_S100x1x256_S100x64x256_S100x1x64_2_2_1_1_0_0.lhsIdx j q 1).val = (j 1).val := by
  unfold DotDims.lhsIdx
  rw [dif_neg (show ¬(1 : Fin S100x1x256.rank) ∈ dot_S100x1x256_S100x64x256_S100x1x64_2_2_1_1_0_0.lhsBatch by decide), dif_pos (show (1 : Fin S100x1x256.rank) ∈ dot_S100x1x256_S100x64x256_S100x1x64_2_2_1_1_0_0.lhsNonContracting by decide)]
  rfl
theorem corrRow_l2 (j : S100x1x64.Idx) (q : dot_S100x1x256_S100x64x256_S100x1x64_2_2_1_1_0_0.contr.Idx) : (dot_S100x1x256_S100x64x256_S100x1x64_2_2_1_1_0_0.lhsIdx j q 2).val = (q ⟨0, by decide⟩).val :=
  dot_S100x1x256_S100x64x256_S100x1x64_2_2_1_1_0_0.lhsIdx_val_of_single rfl j q
theorem corrRow_r0 (j : S100x1x64.Idx) (q : dot_S100x1x256_S100x64x256_S100x1x64_2_2_1_1_0_0.contr.Idx) : (dot_S100x1x256_S100x64x256_S100x1x64_2_2_1_1_0_0.rhsIdx j q 0).val = (j 0).val := by
  unfold DotDims.rhsIdx
  rw [dif_pos (show (0 : Fin S100x64x256.rank) ∈ dot_S100x1x256_S100x64x256_S100x1x64_2_2_1_1_0_0.rhsBatch by decide)]
  rfl
theorem corrRow_r1 (j : S100x1x64.Idx) (q : dot_S100x1x256_S100x64x256_S100x1x64_2_2_1_1_0_0.contr.Idx) : (dot_S100x1x256_S100x64x256_S100x1x64_2_2_1_1_0_0.rhsIdx j q 1).val = (j 2).val := by
  unfold DotDims.rhsIdx
  rw [dif_neg (show ¬(1 : Fin S100x64x256.rank) ∈ dot_S100x1x256_S100x64x256_S100x1x64_2_2_1_1_0_0.rhsBatch by decide), dif_pos (show (1 : Fin S100x64x256.rank) ∈ dot_S100x1x256_S100x64x256_S100x1x64_2_2_1_1_0_0.rhsNonContracting by decide)]
  rfl
theorem corrRow_r2 (j : S100x1x64.Idx) (q : dot_S100x1x256_S100x64x256_S100x1x64_2_2_1_1_0_0.contr.Idx) : (dot_S100x1x256_S100x64x256_S100x1x64_2_2_1_1_0_0.rhsIdx j q 2).val = (q ⟨0, by decide⟩).val :=
  dot_S100x1x256_S100x64x256_S100x1x64_2_2_1_1_0_0.rhsIdx_val_of_single rfl j q

/-- The product into a zero accumulator, read at (s, u, n): the sum over the 256 contracted coordinates. -/
theorem corrRow_apply {φ₁ φ₂ : FTy} (l : FVec Ideal S100x1x256 φ₁) (r : FVec Ideal S100x64x256 φ₂) (s : Fin 100) (u : Fin 1) (n : Fin 64) :
    matmul dot_S100x1x256_S100x64x256_S100x1x64_2_2_1_1_0_0 none l r (constant S100x1x64 .f32 0x00000000#32) (ix3 s u n) = ∑ k : Fin 256, l (ix3 s u k) * r (ix3 s n k) := by
  refine (Ideal.matmul_constant_zero_apply dot_S100x1x256_S100x64x256_S100x1x64_2_2_1_1_0_0 none l r (ix3 s u n)).trans ?_
  rw [← Equiv.sum_comp (contrEquiv1 dot_S100x1x256_S100x64x256_S100x1x64_2_2_1_1_0_0 256 rfl rfl).symm]
  refine Finset.sum_congr rfl fun k _ => ?_
  have hk := contrEquiv1_symm_val dot_S100x1x256_S100x64x256_S100x1x64_2_2_1_1_0_0 256 rfl rfl k
  have el : dot_S100x1x256_S100x64x256_S100x1x64_2_2_1_1_0_0.lhsIdx (ix3 s u n) ((contrEquiv1 dot_S100x1x256_S100x64x256_S100x1x64_2_2_1_1_0_0 256 rfl rfl).symm k) = ix3 s u k := funext fun a => Fin.ext (by
    match a with
    | ⟨0, _⟩ => exact corrRow_l0 _ _
    | ⟨1, _⟩ => exact corrRow_l1 _ _
    | ⟨2, _⟩ => exact (corrRow_l2 _ _).trans hk)
  have er : dot_S100x1x256_S100x64x256_S100x1x64_2_2_1_1_0_0.rhsIdx (ix3 s u n) ((contrEquiv1 dot_S100x1x256_S100x64x256_S100x1x64_2_2_1_1_0_0 256 rfl rfl).symm k) = ix3 s n k := funext fun a => Fin.ext (by
    match a with
    | ⟨0, _⟩ => exact corrRow_r0 _ _
    | ⟨1, _⟩ => exact corrRow_r1 _ _
    | ⟨2, _⟩ => exact (corrRow_r2 _ _).trans hk)
  rw [el, er]

/-! ### `corrCol`: out[s,u,n] = Σ_k lhs[s,u,k] · rhs[s,n,k] -/

theorem corrCol_l0 (j : S100x1x32.Idx) (q : dot_S100x1x256_S100x32x256_S100x1x32_2_2_1_1_0_0.contr.Idx) : (dot_S100x1x256_S100x32x256_S100x1x32_2_2_1_1_0_0.lhsIdx j q 0).val = (j 0).val := by
  unfold DotDims.lhsIdx
  rw [dif_pos (show (0 : Fin S100x1x256.rank) ∈ dot_S100x1x256_S100x32x256_S100x1x32_2_2_1_1_0_0.lhsBatch by decide)]
  rfl
theorem corrCol_l1 (j : S100x1x32.Idx) (q : dot_S100x1x256_S100x32x256_S100x1x32_2_2_1_1_0_0.contr.Idx) : (dot_S100x1x256_S100x32x256_S100x1x32_2_2_1_1_0_0.lhsIdx j q 1).val = (j 1).val := by
  unfold DotDims.lhsIdx
  rw [dif_neg (show ¬(1 : Fin S100x1x256.rank) ∈ dot_S100x1x256_S100x32x256_S100x1x32_2_2_1_1_0_0.lhsBatch by decide), dif_pos (show (1 : Fin S100x1x256.rank) ∈ dot_S100x1x256_S100x32x256_S100x1x32_2_2_1_1_0_0.lhsNonContracting by decide)]
  rfl
theorem corrCol_l2 (j : S100x1x32.Idx) (q : dot_S100x1x256_S100x32x256_S100x1x32_2_2_1_1_0_0.contr.Idx) : (dot_S100x1x256_S100x32x256_S100x1x32_2_2_1_1_0_0.lhsIdx j q 2).val = (q ⟨0, by decide⟩).val :=
  dot_S100x1x256_S100x32x256_S100x1x32_2_2_1_1_0_0.lhsIdx_val_of_single rfl j q
theorem corrCol_r0 (j : S100x1x32.Idx) (q : dot_S100x1x256_S100x32x256_S100x1x32_2_2_1_1_0_0.contr.Idx) : (dot_S100x1x256_S100x32x256_S100x1x32_2_2_1_1_0_0.rhsIdx j q 0).val = (j 0).val := by
  unfold DotDims.rhsIdx
  rw [dif_pos (show (0 : Fin S100x32x256.rank) ∈ dot_S100x1x256_S100x32x256_S100x1x32_2_2_1_1_0_0.rhsBatch by decide)]
  rfl
theorem corrCol_r1 (j : S100x1x32.Idx) (q : dot_S100x1x256_S100x32x256_S100x1x32_2_2_1_1_0_0.contr.Idx) : (dot_S100x1x256_S100x32x256_S100x1x32_2_2_1_1_0_0.rhsIdx j q 1).val = (j 2).val := by
  unfold DotDims.rhsIdx
  rw [dif_neg (show ¬(1 : Fin S100x32x256.rank) ∈ dot_S100x1x256_S100x32x256_S100x1x32_2_2_1_1_0_0.rhsBatch by decide), dif_pos (show (1 : Fin S100x32x256.rank) ∈ dot_S100x1x256_S100x32x256_S100x1x32_2_2_1_1_0_0.rhsNonContracting by decide)]
  rfl
theorem corrCol_r2 (j : S100x1x32.Idx) (q : dot_S100x1x256_S100x32x256_S100x1x32_2_2_1_1_0_0.contr.Idx) : (dot_S100x1x256_S100x32x256_S100x1x32_2_2_1_1_0_0.rhsIdx j q 2).val = (q ⟨0, by decide⟩).val :=
  dot_S100x1x256_S100x32x256_S100x1x32_2_2_1_1_0_0.rhsIdx_val_of_single rfl j q

/-- The product into a zero accumulator, read at (s, u, n): the sum over the 256 contracted coordinates. -/
theorem corrCol_apply {φ₁ φ₂ : FTy} (l : FVec Ideal S100x1x256 φ₁) (r : FVec Ideal S100x32x256 φ₂) (s : Fin 100) (u : Fin 1) (n : Fin 32) :
    matmul dot_S100x1x256_S100x32x256_S100x1x32_2_2_1_1_0_0 none l r (constant S100x1x32 .f32 0x00000000#32) (ix3 s u n) = ∑ k : Fin 256, l (ix3 s u k) * r (ix3 s n k) := by
  refine (Ideal.matmul_constant_zero_apply dot_S100x1x256_S100x32x256_S100x1x32_2_2_1_1_0_0 none l r (ix3 s u n)).trans ?_
  rw [← Equiv.sum_comp (contrEquiv1 dot_S100x1x256_S100x32x256_S100x1x32_2_2_1_1_0_0 256 rfl rfl).symm]
  refine Finset.sum_congr rfl fun k _ => ?_
  have hk := contrEquiv1_symm_val dot_S100x1x256_S100x32x256_S100x1x32_2_2_1_1_0_0 256 rfl rfl k
  have el : dot_S100x1x256_S100x32x256_S100x1x32_2_2_1_1_0_0.lhsIdx (ix3 s u n) ((contrEquiv1 dot_S100x1x256_S100x32x256_S100x1x32_2_2_1_1_0_0 256 rfl rfl).symm k) = ix3 s u k := funext fun a => Fin.ext (by
    match a with
    | ⟨0, _⟩ => exact corrCol_l0 _ _
    | ⟨1, _⟩ => exact corrCol_l1 _ _
    | ⟨2, _⟩ => exact (corrCol_l2 _ _).trans hk)
  have er : dot_S100x1x256_S100x32x256_S100x1x32_2_2_1_1_0_0.rhsIdx (ix3 s u n) ((contrEquiv1 dot_S100x1x256_S100x32x256_S100x1x32_2_2_1_1_0_0 256 rfl rfl).symm k) = ix3 s n k := funext fun a => Fin.ext (by
    match a with
    | ⟨0, _⟩ => exact corrCol_r0 _ _
    | ⟨1, _⟩ => exact corrCol_r1 _ _
    | ⟨2, _⟩ => exact (corrCol_r2 _ _).trans hk)
  rw [el, er]

/-! ### `readImg`: out[s,u,n] = Σ_k lhs[s,u,k] · rhs[s,k,n] -/

theorem readImg_l0 (j : S100x1x256.Idx) (q : dot_S100x1x64_S100x64x256_S100x1x256_2_1_1_2_0_0.contr.Idx) : (dot_S100x1x64_S100x64x256_S100x1x256_2_1_1_2_0_0.lhsIdx j q 0).val = (j 0).val := by
  unfold DotDims.lhsIdx
  rw [dif_pos (show (0 : Fin S100x1x64.rank) ∈ dot_S100x1x64_S100x64x256_S100x1x256_2_1_1_2_0_0.lhsBatch by decide)]
  rfl
theorem readImg_l1 (j : S100x1x256.Idx) (q : dot_S100x1x64_S100x64x256_S100x1x256_2_1_1_2_0_0.contr.Idx) : (dot_S100x1x64_S100x64x256_S100x1x256_2_1_1_2_0_0.lhsIdx j q 1).val = (j 1).val := by
  unfold DotDims.lhsIdx
  rw [dif_neg (show ¬(1 : Fin S100x1x64.rank) ∈ dot_S100x1x64_S100x64x256_S100x1x256_2_1_1_2_0_0.lhsBatch by decide), dif_pos (show (1 : Fin S100x1x64.rank) ∈ dot_S100x1x64_S100x64x256_S100x1x256_2_1_1_2_0_0.lhsNonContracting by decide)]
  rfl
theorem readImg_l2 (j : S100x1x256.Idx) (q : dot_S100x1x64_S100x64x256_S100x1x256_2_1_1_2_0_0.contr.Idx) : (dot_S100x1x64_S100x64x256_S100x1x256_2_1_1_2_0_0.lhsIdx j q 2).val = (q ⟨0, by decide⟩).val :=
  dot_S100x1x64_S100x64x256_S100x1x256_2_1_1_2_0_0.lhsIdx_val_of_single rfl j q
theorem readImg_r0 (j : S100x1x256.Idx) (q : dot_S100x1x64_S100x64x256_S100x1x256_2_1_1_2_0_0.contr.Idx) : (dot_S100x1x64_S100x64x256_S100x1x256_2_1_1_2_0_0.rhsIdx j q 0).val = (j 0).val := by
  unfold DotDims.rhsIdx
  rw [dif_pos (show (0 : Fin S100x64x256.rank) ∈ dot_S100x1x64_S100x64x256_S100x1x256_2_1_1_2_0_0.rhsBatch by decide)]
  rfl
theorem readImg_r1 (j : S100x1x256.Idx) (q : dot_S100x1x64_S100x64x256_S100x1x256_2_1_1_2_0_0.contr.Idx) : (dot_S100x1x64_S100x64x256_S100x1x256_2_1_1_2_0_0.rhsIdx j q 1).val = (q ⟨0, by decide⟩).val :=
  dot_S100x1x64_S100x64x256_S100x1x256_2_1_1_2_0_0.rhsIdx_val_of_single rfl j q
theorem readImg_r2 (j : S100x1x256.Idx) (q : dot_S100x1x64_S100x64x256_S100x1x256_2_1_1_2_0_0.contr.Idx) : (dot_S100x1x64_S100x64x256_S100x1x256_2_1_1_2_0_0.rhsIdx j q 2).val = (j 2).val := by
  unfold DotDims.rhsIdx
  rw [dif_neg (show ¬(2 : Fin S100x64x256.rank) ∈ dot_S100x1x64_S100x64x256_S100x1x256_2_1_1_2_0_0.rhsBatch by decide), dif_pos (show (2 : Fin S100x64x256.rank) ∈ dot_S100x1x64_S100x64x256_S100x1x256_2_1_1_2_0_0.rhsNonContracting by decide)]
  rfl

/-- The product into a zero accumulator, read at (s, u, n): the sum over the 64 contracted coordinates. -/
theorem readImg_apply {φ₁ φ₂ : FTy} (l : FVec Ideal S100x1x64 φ₁) (r : FVec Ideal S100x64x256 φ₂) (s : Fin 100) (u : Fin 1) (n : Fin 256) :
    matmul dot_S100x1x64_S100x64x256_S100x1x256_2_1_1_2_0_0 none l r (constant S100x1x256 .f32 0x00000000#32) (ix3 s u n) = ∑ k : Fin 64, l (ix3 s u k) * r (ix3 s k n) := by
  refine (Ideal.matmul_constant_zero_apply dot_S100x1x64_S100x64x256_S100x1x256_2_1_1_2_0_0 none l r (ix3 s u n)).trans ?_
  rw [← Equiv.sum_comp (contrEquiv1 dot_S100x1x64_S100x64x256_S100x1x256_2_1_1_2_0_0 64 rfl rfl).symm]
  refine Finset.sum_congr rfl fun k _ => ?_
  have hk := contrEquiv1_symm_val dot_S100x1x64_S100x64x256_S100x1x256_2_1_1_2_0_0 64 rfl rfl k
  have el : dot_S100x1x64_S100x64x256_S100x1x256_2_1_1_2_0_0.lhsIdx (ix3 s u n) ((contrEquiv1 dot_S100x1x64_S100x64x256_S100x1x256_2_1_1_2_0_0 64 rfl rfl).symm k) = ix3 s u k := funext fun a => Fin.ext (by
    match a with
    | ⟨0, _⟩ => exact readImg_l0 _ _
    | ⟨1, _⟩ => exact readImg_l1 _ _
    | ⟨2, _⟩ => exact (readImg_l2 _ _).trans hk)
  have er : dot_S100x1x64_S100x64x256_S100x1x256_2_1_1_2_0_0.rhsIdx (ix3 s u n) ((contrEquiv1 dot_S100x1x64_S100x64x256_S100x1x256_2_1_1_2_0_0 64 rfl rfl).symm k) = ix3 s k n := funext fun a => Fin.ext (by
    match a with
    | ⟨0, _⟩ => exact readImg_r0 _ _
    | ⟨1, _⟩ => exact (readImg_r1 _ _).trans hk
    | ⟨2, _⟩ => exact readImg_r2 _ _)
  rw [el, er]

/-! ### `readTtl`: out[s,u,n] = Σ_k lhs[s,u,k] · rhs[s,k,n] -/

theorem readTtl_l0 (j : S100x1x256.Idx) (q : dot_S100x1x32_S100x32x256_S100x1x256_2_1_1_2_0_0.contr.Idx) : (dot_S100x1x32_S100x32x256_S100x1x256_2_1_1_2_0_0.lhsIdx j q 0).val = (j 0).val := by
  unfold DotDims.lhsIdx
  rw [dif_pos (show (0 : Fin S100x1x32.rank) ∈ dot_S100x1x32_S100x32x256_S100x1x256_2_1_1_2_0_0.lhsBatch by decide)]
  rfl
theorem readTtl_l1 (j : S100x1x256.Idx) (q : dot_S100x1x32_S100x32x256_S100x1x256_2_1_1_2_0_0.contr.Idx) : (dot_S100x1x32_S100x32x256_S100x1x256_2_1_1_2_0_0.lhsIdx j q 1).val = (j 1).val := by
  unfold DotDims.lhsIdx
  rw [dif_neg (show ¬(1 : Fin S100x1x32.rank) ∈ dot_S100x1x32_S100x32x256_S100x1x256_2_1_1_2_0_0.lhsBatch by decide), dif_pos (show (1 : Fin S100x1x32.rank) ∈ dot_S100x1x32_S100x32x256_S100x1x256_2_1_1_2_0_0.lhsNonContracting by decide)]
  rfl
theorem readTtl_l2 (j : S100x1x256.Idx) (q : dot_S100x1x32_S100x32x256_S100x1x256_2_1_1_2_0_0.contr.Idx) : (dot_S100x1x32_S100x32x256_S100x1x256_2_1_1_2_0_0.lhsIdx j q 2).val = (q ⟨0, by decide⟩).val :=
  dot_S100x1x32_S100x32x256_S100x1x256_2_1_1_2_0_0.lhsIdx_val_of_single rfl j q
theorem readTtl_r0 (j : S100x1x256.Idx) (q : dot_S100x1x32_S100x32x256_S100x1x256_2_1_1_2_0_0.contr.Idx) : (dot_S100x1x32_S100x32x256_S100x1x256_2_1_1_2_0_0.rhsIdx j q 0).val = (j 0).val := by
  unfold DotDims.rhsIdx
  rw [dif_pos (show (0 : Fin S100x32x256.rank) ∈ dot_S100x1x32_S100x32x256_S100x1x256_2_1_1_2_0_0.rhsBatch by decide)]
  rfl
theorem readTtl_r1 (j : S100x1x256.Idx) (q : dot_S100x1x32_S100x32x256_S100x1x256_2_1_1_2_0_0.contr.Idx) : (dot_S100x1x32_S100x32x256_S100x1x256_2_1_1_2_0_0.rhsIdx j q 1).val = (q ⟨0, by decide⟩).val :=
  dot_S100x1x32_S100x32x256_S100x1x256_2_1_1_2_0_0.rhsIdx_val_of_single rfl j q
theorem readTtl_r2 (j : S100x1x256.Idx) (q : dot_S100x1x32_S100x32x256_S100x1x256_2_1_1_2_0_0.contr.Idx) : (dot_S100x1x32_S100x32x256_S100x1x256_2_1_1_2_0_0.rhsIdx j q 2).val = (j 2).val := by
  unfold DotDims.rhsIdx
  rw [dif_neg (show ¬(2 : Fin S100x32x256.rank) ∈ dot_S100x1x32_S100x32x256_S100x1x256_2_1_1_2_0_0.rhsBatch by decide), dif_pos (show (2 : Fin S100x32x256.rank) ∈ dot_S100x1x32_S100x32x256_S100x1x256_2_1_1_2_0_0.rhsNonContracting by decide)]
  rfl

/-- The product into a zero accumulator, read at (s, u, n): the sum over the 32 contracted coordinates. -/
theorem readTtl_apply {φ₁ φ₂ : FTy} (l : FVec Ideal S100x1x32 φ₁) (r : FVec Ideal S100x32x256 φ₂) (s : Fin 100) (u : Fin 1) (n : Fin 256) :
    matmul dot_S100x1x32_S100x32x256_S100x1x256_2_1_1_2_0_0 none l r (constant S100x1x256 .f32 0x00000000#32) (ix3 s u n) = ∑ k : Fin 32, l (ix3 s u k) * r (ix3 s k n) := by
  refine (Ideal.matmul_constant_zero_apply dot_S100x1x32_S100x32x256_S100x1x256_2_1_1_2_0_0 none l r (ix3 s u n)).trans ?_
  rw [← Equiv.sum_comp (contrEquiv1 dot_S100x1x32_S100x32x256_S100x1x256_2_1_1_2_0_0 32 rfl rfl).symm]
  refine Finset.sum_congr rfl fun k _ => ?_
  have hk := contrEquiv1_symm_val dot_S100x1x32_S100x32x256_S100x1x256_2_1_1_2_0_0 32 rfl rfl k
  have el : dot_S100x1x32_S100x32x256_S100x1x256_2_1_1_2_0_0.lhsIdx (ix3 s u n) ((contrEquiv1 dot_S100x1x32_S100x32x256_S100x1x256_2_1_1_2_0_0 32 rfl rfl).symm k) = ix3 s u k := funext fun a => Fin.ext (by
    match a with
    | ⟨0, _⟩ => exact readTtl_l0 _ _
    | ⟨1, _⟩ => exact readTtl_l1 _ _
    | ⟨2, _⟩ => exact (readTtl_l2 _ _).trans hk)
  have er : dot_S100x1x32_S100x32x256_S100x1x256_2_1_1_2_0_0.rhsIdx (ix3 s u n) ((contrEquiv1 dot_S100x1x32_S100x32x256_S100x1x256_2_1_1_2_0_0 32 rfl rfl).symm k) = ix3 s k n := funext fun a => Fin.ext (by
    match a with
    | ⟨0, _⟩ => exact readTtl_r0 _ _
    | ⟨1, _⟩ => exact (readTtl_r1 _ _).trans hk
    | ⟨2, _⟩ => exact readTtl_r2 _ _)
  rw [el, er]

end Cert.KerDots

end
-- ==== Proof.LibLayout.lean ====
/-
  Layout operations around a unit MIDDLE or TRAILING axis, read at an index written by coordinates,
  for any element type and any extents: a shape cast that drops or inserts a unit axis in the middle
  ([a,1,b] ↔ [a,b]), the "keepdims" column of a vector ([a] → [a,1]) and its broadcast along the rows
  ([a,1] → [a,b]).  Each is the library's read-at-an-index lemma with the row-major arithmetic done.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A vector `[a]` cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ValueIdx
-- ==== Proof.KerSoft.lean ====
/-
  A softmax over the lanes of a [100, n] block, as the body spells it, read at an index.  The body
  takes the row maximum (a lane reduction folded from `-∞`), keeps it as a column [100, 1], broadcasts
  it back along the row, subtracts and exponentiates; then the row sum (a lane reduction), kept as a
  column, broadcast back, and divided by.  At (s, i) these are Attend.lean's `ex` and `weight` of
  the row `fun i' => v (s, i')`.  Also the zero fill of a block read at an index.
-/
import proofs.«102525_j23347442221612_2_alg».proof.Proof.Attend
import proofs.«102525_j23347442221612_2_alg».proof.Proof.LibLayout
import Idealize.ShloMosaic.PureOps.Ideal.Laws

noncomputable section

namespace Cert.KerSoft

open Idealize.ShloMosaic Idealize.ShloMosaic.ValueIdx Cert.Attend

/-- A block whose entries equal to zero are replaced by `-1e9`, read at an index. -/
theorem fill_at {s : Shape} (v : FVec Ideal s .f32) (j : s.Idx) :
    select (cmpf .oeq v (broadcast s (Scalar.ofBits .f32 0x00000000#32))) (broadcast s (Scalar.ofBits .f32 0xCE6E6B28#32)) v j
      = fill (v j) := rfl

variable {n : Nat}

/-- The index a lane reduction of a [100, n] block re-inserts lane `i` at is (s, i). -/
theorem lift_lane (hr : (⟨2, ![100, n]⟩ : Shape).Reduces [1] ⟨1, ![100]⟩) (s : Fin 100) (i : Fin n) :
    hr.lift (ix1 s) i = ix2 s i := by
  funext a; apply Fin.ext
  match a with | ⟨0, _⟩ => rfl | ⟨1, _⟩ => rfl

/-- The row maximum of a [100, n] block at row `s`. -/
theorem rowmax_at (v : FVec Ideal ⟨2, ![100, n]⟩ .f32) (hr : (⟨2, ![100, n]⟩ : Shape).Reduces [1] ⟨1, ![100]⟩)
    (hφ : FKind.Formats .f32) (hacc : (0xFF800000#32 : BitVec 32) = FKind.maximumf.neutral .f32 hφ) (s : Fin 100) :
    multiReduction .maximumf [1] ⟨1, ![100]⟩ v 0xFF800000#32 hr hφ hacc (ix1 s) = top (fun i : Fin n => v (ix2 s i)) := by
  refine (Ideal.multiReduction_maximumf_single v _ hr hφ hacc (ix1 s)).trans ?_
  have e : (v ∘ hr.lift (ix1 s)) = fun i : Fin n => v (ix2 s i) := funext fun i => congrArg v (lift_lane hr s i)
  exact congrArg (fun f => (Finset.univ : Finset (Fin n)).fold max negInf f) e

/-- The row sum of a [100, n] block at row `s`. -/
theorem rowsum_at (e : FVec Ideal ⟨2, ![100, n]⟩ .f32) (hr : (⟨2, ![100, n]⟩ : Shape).Reduces [1] ⟨1, ![100]⟩)
    (hφ : FKind.Formats .f32) (hacc : (0x00000000#32 : BitVec 32) = FKind.add.neutral .f32 hφ) (s : Fin 100) :
    multiReduction .add [1] ⟨1, ![100]⟩ e 0x00000000#32 hr hφ hacc (ix1 s) = ∑ i : Fin n, e (ix2 s i) := by
  refine (Ideal.multiReduction_add_single e _ hr hφ hacc (ix1 s)).trans ?_
  exact Finset.sum_congr rfl fun k _ => congrArg e (lift_lane hr s k)

/-- `exp (v - rowmax v)` with the maximum kept as a column and broadcast back, at (s, i). -/
theorem softexp_at (v : FVec Ideal ⟨2, ![100, n]⟩ .f32) (hr : (⟨2, ![100, n]⟩ : Shape).Reduces [1] ⟨1, ![100]⟩)
    (hφ : FKind.Formats .f32) (hacc : (0xFF800000#32 : BitVec 32) = FKind.maximumf.neutral .f32 hφ)
    (hc : (⟨1, ![100]⟩ : Shape).ShapeCasts ⟨2, ![100, 1]⟩) (hb : (⟨2, ![100, 1]⟩ : Shape).Broadcasts ⟨2, ![100, n]⟩)
    (s : Fin 100) (i : Fin n) :
    exp (subf v (broadcastTo ⟨2, ![100, n]⟩ (shapeCast ⟨2, ![100, 1]⟩
      (multiReduction .maximumf [1] ⟨1, ![100]⟩ v 0xFF800000#32 hr hφ hacc) hc) hb)) (ix2 s i)
      = ex (fun i' : Fin n => v (ix2 s i')) i := by
  show Ideal.exp (v (ix2 s i) - broadcastTo ⟨2, ![100, n]⟩ _ hb (ix2 s i)) = _
  rw [broadcastTo_a1_ab_apply, shapeCast_a_a1_apply, rowmax_at]
  rfl

/-- `e / rowsum e` with the sum kept as a column and broadcast back, at (s, i). -/
theorem softdiv_at (e : FVec Ideal ⟨2, ![100, n]⟩ .f32) (hr : (⟨2, ![100, n]⟩ : Shape).Reduces [1] ⟨1, ![100]⟩)
    (hφ : FKind.Formats .f32) (hacc : (0x00000000#32 : BitVec 32) = FKind.add.neutral .f32 hφ)
    (hc : (⟨1, ![100]⟩ : Shape).ShapeCasts ⟨2, ![100, 1]⟩) (hb : (⟨2, ![100, 1]⟩ : Shape).Broadcasts ⟨2, ![100, n]⟩)
    (s : Fin 100) (i : Fin n) :
    divf e (broadcastTo ⟨2, ![100, n]⟩ (shapeCast ⟨2, ![100, 1]⟩
      (multiReduction .add [1] ⟨1, ![100]⟩ e 0x00000000#32 hr hφ hacc) hc) hb) (ix2 s i)
      = Ideal.div (e (ix2 s i)) (∑ j : Fin n, e (ix2 s j)) := by
  show Ideal.div (e (ix2 s i)) (broadcastTo ⟨2, ![100, n]⟩ _ hb (ix2 s i)) = _
  rw [broadcastTo_a1_ab_apply, shapeCast_a_a1_apply, rowsum_at]

/-- The whole lane softmax as the body spells it — shift by the row maximum, exponentiate, divide by the row
    sum — at (s, i): the weight of entry `i` in row `s`. -/
theorem softmax_at (v : FVec Ideal ⟨2, ![100, n]⟩ .f32) (hr : (⟨2, ![100, n]⟩ : Shape).Reduces [1] ⟨1, ![100]⟩)
    (hφ : FKind.Formats .f32) (haccM : (0xFF800000#32 : BitVec 32) = FKind.maximumf.neutral .f32 hφ)
    (haccA : (0x00000000#32 : BitVec 32) = FKind.add.neutral .f32 hφ)
    (hc : (⟨1, ![100]⟩ : Shape).ShapeCasts ⟨2, ![100, 1]⟩) (hb : (⟨2, ![100, 1]⟩ : Shape).Broadcasts ⟨2, ![100, n]⟩)
    (s : Fin 100) (i : Fin n) :
    divf (exp (subf v (broadcastTo ⟨2, ![100, n]⟩ (shapeCast ⟨2, ![100, 1]⟩
        (multiReduction .maximumf [1] ⟨1, ![100]⟩ v 0xFF800000#32 hr hφ haccM) hc) hb)))
      (broadcastTo ⟨2, ![100, n]⟩ (shapeCast ⟨2, ![100, 1]⟩
        (multiReduction .add [1] ⟨1, ![100]⟩ (exp (subf v (broadcastTo ⟨2, ![100, n]⟩ (shapeCast ⟨2, ![100, 1]⟩
          (multiReduction .maximumf [1] ⟨1, ![100]⟩ v 0xFF800000#32 hr hφ haccM) hc) hb))) 0x00000000#32 hr hφ haccA) hc) hb) (ix2 s i)
      = weight (fun i' : Fin n => v (ix2 s i')) i := by
  refine (softdiv_at _ hr hφ haccA hc hb s i).trans ?_
  unfold weight
  rw [softexp_at]
  exact congrArg (Ideal.div _) (Finset.sum_congr rfl fun j _ => softexp_at v hr hφ haccM hc hb s j)

end Cert.KerSoft

end
-- ==== Proof.KerImg.lean ====
/-
  The body's first result block read at an index, over ANY contents of the five input blocks
  (image [1,100,64,256], title [1,100,32,256], mask [1,100,32], adapter row [100,64], adapter column
  [100,32]).  The body correlates title row 31 with every image token, multiplies by mask[s,31] and the
  adapter row, fills zeros, takes the lane softmax and multiplies the weights into the image block.
  At (s, d) that is the read-out of Attend.lean over the 64 image tokens with the block's row scores.
-/
import proofs.«102525_j23347442221612_2_alg».proof.Proof.Gen.KernelIdeal.Skeleton
import proofs.«102525_j23347442221612_2_alg».proof.Proof.KerDots
import proofs.«102525_j23347442221612_2_alg».proof.Proof.KerSoft
import proofs.«102525_j23347442221612_2_alg».proof.Proof.Spec
import Idealize.ShloMosaic.Lib.ValueLayout

noncomputable section

namespace Cert.KerImg

open Cert.KernelIdeal Cert.KernelIdeal.Gen Cert.KernelIdeal.Facts₀
open Idealize.ShloMosaic Idealize.ShloMosaic.ValueIdx Cert.Attend Cert.Spec Cert.KerSoft Cert.KerDots

variable (x0 : Vec Ideal S1x100x64x256 .f32) (x1 : Vec Ideal S1x100x32x256 .f32) (x2 : Vec Ideal S1x100x32 .f32)
  (x3 : Vec Ideal S100x64 .f32) (x4 : Vec Ideal S100x32 .f32)

/-- The image block with its unit batch axis dropped (the change of float format is the identity). -/
theorem img_at (s : Fin 100) (i : Fin 64) (k : Fin 256) : k0_pay3 x0 (ix3 s i k) = x0 (ix4 (0 : Fin 1) s i k) := by
  unfold k0_pay3
  exact shapeCast_1abc_abc_apply x0 _ s i k

/-- The title block with its unit batch axis dropped. -/
theorem ttl_at (s : Fin 100) (t : Fin 32) (k : Fin 256) : k0_pay4 x1 (ix3 s t k) = x1 (ix4 (0 : Fin 1) s t k) := by
  unfold k0_pay4
  exact shapeCast_1abc_abc_apply x1 _ s t k

/-- The mask block with its unit batch axis dropped. -/
theorem msk_at (s : Fin 100) (t : Fin 32) : k0_pay5 x2 (ix2 s t) = x2 (ix3 (0 : Fin 1) s t) := by
  unfold k0_pay5
  exact shapeCast_1ab_ab_apply x2 _ s t

/-- Row 31 of the title block. -/
theorem ttlLast_at (s : Fin 100) (k : Fin 256) :
    extractStridedSlice S100x1x256 ![0, 31, 0] (k0_pay4 x1) Facts₀.slices_S100x32x256_o0_31_0_S100x1x256 (ix3 s (0 : Fin 1) k)
      = x1 (ix4 (0 : Fin 1) s tLast k) := by
  rw [slice3_axis1_apply 31 _ _ s (0 : Fin 1) k tLast rfl, ttl_at]

/-- Row 63 of the image block. -/
theorem imgLast_at (s : Fin 100) (k : Fin 256) :
    extractStridedSlice S100x1x256 ![0, 63, 0] (k0_pay3 x0) Facts₀.slices_S100x64x256_o0_63_0_S100x1x256 (ix3 s (0 : Fin 1) k)
      = x0 (ix4 (0 : Fin 1) s iLast k) := by
  rw [slice3_axis1_apply 63 _ _ s (0 : Fin 1) k iLast rfl, img_at]

/-- The block's score of image token `i` against the last title token, before the zero fill. -/
def rowScore (s : Fin 100) (i : Fin 64) : EReal :=
  (∑ k : Fin 256, x1 (ix4 (0 : Fin 1) s tLast k) * x0 (ix4 (0 : Fin 1) s i k)) * x2 (ix3 (0 : Fin 1) s tLast) * x3 (ix2 s i)

/-- The shifted exponentials the first part of the body hands on, at (s, i). -/
theorem rowExp_at (s : Fin 100) (i : Fin 64) :
    k0_pay7 x0 x1 x2 x3 (ix2 s i) = ex (fun i' : Fin 64 => fill (rowScore x0 x1 x2 x3 s i')) i := by
  unfold k0_pay7
  refine (softexp_at _ _ _ _ _ _ s i).trans ?_
  refine congrArg (fun f => ex f i) (funext fun i' => ?_)
  refine (fill_at _ _).trans (congrArg fill ?_)
  rw [mulf_apply, mulf_apply, shapeCast_self, broadcastTo_a1_ab_apply,
    slice2_axis1_apply 31 _ _ s (0 : Fin 1) tLast rfl, msk_at, shapeCast_a1b_ab_apply, corrRow_apply]
  simp only [ttlLast_at, img_at]
  rfl

/-- The weighted sum the second part of the body stores, from the exponentials and the image block. -/
theorem readout_at (v4 : FVec Ideal S100x64x256 .bf16) (v36 : FVec Ideal S100x64 .f32) (u : Fin 1) (s : Fin 100) (d : Fin 256) :
    k0_pay1 v4 v36 (ix3 u s d)
      = ∑ i : Fin 64, Ideal.div (v36 (ix2 s i)) (∑ j : Fin 64, v36 (ix2 s j)) * v4 (ix3 s i d) := by
  unfold k0_pay1
  refine (shapeCast_ab_1ab_apply _ _ u s d).trans ?_
  refine (shapeCast_a1b_ab_apply _ _ s d).trans ?_
  refine (readImg_apply _ _ s (0 : Fin 1) d).trans ?_
  refine Finset.sum_congr rfl fun i _ => ?_
  refine congrArg (· * v4 (ix3 s i d)) ?_
  refine (shapeCast_ab_a1b_apply _ _ s (0 : Fin 1) i).trans ?_
  exact softdiv_at v36 _ _ _ _ _ s i

/-- The first result block at (u, s, d): the read-out over the image tokens. -/
theorem out_at (u : Fin 1) (s : Fin 100) (d : Fin 256) :
    k0_pay1 (k0_pay3 x0) (k0_pay7 x0 x1 x2 x3) (ix3 u s d)
      = attend (fun i : Fin 64 => fill (rowScore x0 x1 x2 x3 s i)) (fun i : Fin 64 => x0 (ix4 (0 : Fin 1) s i d)) := by
  rw [readout_at]
  simp only [rowExp_at, img_at]
  rfl

end Cert.KerImg

end
-- ==== Proof.KerTtl.lean ====
/-
  The body's second result block read at an index, over any contents of the input blocks.  The body
  correlates image row 63 with every title token, multiplies by the mask and the adapter column, fills
  zeros (this is what its first part hands on), then takes the lane softmax over the 32 title tokens and
  multiplies the weights into the title block.  At (s, d) that is the read-out of Attend.lean over the
  32 title tokens with the block's column scores.
-/
import proofs.«102525_j23347442221612_2_alg».proof.Proof.KerImg

noncomputable section

namespace Cert.KerTtl

open Cert.KernelIdeal Cert.KernelIdeal.Gen Cert.KernelIdeal.Facts₀
open Idealize.ShloMosaic Idealize.ShloMosaic.ValueIdx Cert.Attend Cert.Spec Cert.KerSoft Cert.KerDots Cert.KerImg

variable (x0 : Vec Ideal S1x100x64x256 .f32) (x1 : Vec Ideal S1x100x32x256 .f32) (x2 : Vec Ideal S1x100x32 .f32)
  (x3 : Vec Ideal S100x64 .f32) (x4 : Vec Ideal S100x32 .f32)

/-- The block's score of title token `t` against the last image token, before the zero fill. -/
def colScore (s : Fin 100) (t : Fin 32) : EReal :=
  (∑ k : Fin 256, x0 (ix4 (0 : Fin 1) s iLast k) * x1 (ix4 (0 : Fin 1) s t k)) * x2 (ix3 (0 : Fin 1) s t) * x4 (ix2 s t)

/-- The filled column scores the first part of the body hands on, at (s, t). -/
theorem colFill_at (s : Fin 100) (t : Fin 32) :
    k0_pay6 x0 x1 x2 x4 (ix2 s t) = fill (colScore x0 x1 x2 x4 s t) := by
  unfold k0_pay6
  refine (fill_at _ _).trans (congrArg fill ?_)
  rw [mulf_apply, mulf_apply, shapeCast_self, msk_at, shapeCast_a1b_ab_apply, corrCol_apply]
  simp only [imgLast_at, ttl_at]
  rfl

/-- The weighted sum the second part of the body stores, from the filled scores and the title block. -/
theorem readout_at (v5 : FVec Ideal S100x32x256 .bf16) (v31 : FVec Ideal S100x32 .f32) (u : Fin 1) (s : Fin 100) (d : Fin 256) :
    k0_pay2 v5 v31 (ix3 u s d)
      = ∑ t : Fin 32, weight (fun t' : Fin 32 => v31 (ix2 s t')) t * v5 (ix3 s t d) := by
  unfold k0_pay2
  refine (shapeCast_ab_1ab_apply _ _ u s d).trans ?_
  refine (shapeCast_a1b_ab_apply _ _ s d).trans ?_
  refine (readTtl_apply _ _ s (0 : Fin 1) d).trans ?_
  refine Finset.sum_congr rfl fun t _ => ?_
  refine congrArg (· * v5 (ix3 s t d)) ?_
  refine (shapeCast_ab_a1b_apply _ _ s (0 : Fin 1) t).trans ?_
  exact softmax_at v31 _ _ _ _ _ _ s t

/-- The second result block at (u, s, d): the read-out over the title tokens. -/
theorem out_at (u : Fin 1) (s : Fin 100) (d : Fin 256) :
    k0_pay2 (k0_pay4 x1) (k0_pay6 x0 x1 x2 x4) (ix3 u s d)
      = attend (fun t : Fin 32 => fill (colScore x0 x1 x2 x4 s t)) (fun t : Fin 32 => x1 (ix4 (0 : Fin 1) s t d)) := by
  rw [readout_at]
  simp only [colFill_at, ttl_at]
  rfl

end Cert.KerTtl

end
-- ==== Proof.KerBridge.lean ====
/-
  From a block to the arrays.  If the five input blocks of a grid point hold batch `b` of the image,
  title and mask arrays and the two adapter slices (row t = 31 and column i = 63 of the adapter), then
  the two result blocks hold batch `b` of Spec.lean's two results.  The only algebra is commutativity
  of the product on the extended reals: the body multiplies correlation · mask · adapter where the
  reference multiplies adapter · (correlation · mask), and the body's column correlation has its two
  factors in the other order.
-/
import proofs.«102525_j23347442221612_2_alg».proof.Proof.KerTtl

noncomputable section

namespace Cert.KerBridge

open Cert.KernelIdeal Cert.KernelIdeal.Gen
open Idealize.ShloMosaic Idealize.ShloMosaic.ValueIdx Cert.Attend Cert.Spec

variable (img : ImgArr) (ttl : TtlArr) (msk : MskArr) (adp : AdpArr)
variable (x0 : Vec Ideal S1x100x64x256 .f32) (x1 : Vec Ideal S1x100x32x256 .f32) (x2 : Vec Ideal S1x100x32 .f32)
  (x3 : Vec Ideal S100x64 .f32) (x4 : Vec Ideal S100x32 .f32)
variable (b : Fin 32)

/-- The first result block of a point whose blocks are batch `b` of the arrays. -/
theorem img_block
    (h0 : ∀ (s : Fin 100) (i : Fin 64) (k : Fin 256), x0 (ix4 (0 : Fin 1) s i k) = img (ix4 b s i k))
    (h1 : ∀ (s : Fin 100) (t : Fin 32) (k : Fin 256), x1 (ix4 (0 : Fin 1) s t k) = ttl (ix4 b s t k))
    (h2 : ∀ (s : Fin 100) (t : Fin 32), x2 (ix3 (0 : Fin 1) s t) = msk (ix3 b s t))
    (h3 : ∀ (s : Fin 100) (i : Fin 64), x3 (ix2 s i) = adp (ix3 s tLast i))
    (u : Fin 1) (s : Fin 100) (d : Fin 256) :
    k0_pay1 (k0_pay3 x0) (k0_pay7 x0 x1 x2 x3) (ix3 u s d) = outImg img ttl msk adp (ix3 b s d) := by
  rw [Cert.KerImg.out_at]
  show attend _ _ = attend (fun i : Fin 64 => score img ttl msk adp b s tLast i) (fun i : Fin 64 => img (ix4 b s i d))
  have hs : (fun i : Fin 64 => fill (Cert.KerImg.rowScore x0 x1 x2 x3 s i)) = fun i : Fin 64 => score img ttl msk adp b s tLast i := by
    funext i
    unfold Cert.KerImg.rowScore score corr
    simp only [h0, h1, h2, h3]
    exact congrArg fill (mul_comm _ _)
  have hv : (fun i : Fin 64 => x0 (ix4 (0 : Fin 1) s i d)) = fun i : Fin 64 => img (ix4 b s i d) := funext fun i => h0 s i d
  rw [hs, hv]

/-- The second result block of a point whose blocks are batch `b` of the arrays. -/
theorem ttl_block
    (h0 : ∀ (s : Fin 100) (i : Fin 64) (k : Fin 256), x0 (ix4 (0 : Fin 1) s i k) = img (ix4 b s i k))
    (h1 : ∀ (s : Fin 100) (t : Fin 32) (k : Fin 256), x1 (ix4 (0 : Fin 1) s t k) = ttl (ix4 b s t k))
    (h2 : ∀ (s : Fin 100) (t : Fin 32), x2 (ix3 (0 : Fin 1) s t) = msk (ix3 b s t))
    (h4 : ∀ (s : Fin 100) (t : Fin 32), x4 (ix2 s t) = adp (ix3 s t iLast))
    (u : Fin 1) (s : Fin 100) (d : Fin 256) :
    k0_pay2 (k0_pay4 x1) (k0_pay6 x0 x1 x2 x4) (ix3 u s d) = outTtl img ttl msk adp (ix3 b s d) := by
  rw [Cert.KerTtl.out_at]
  show attend _ _ = attend (fun t : Fin 32 => score img ttl msk adp b s t iLast) (fun t : Fin 32 => ttl (ix4 b s t d))
  have hs : (fun t : Fin 32 => fill (Cert.KerTtl.colScore x0 x1 x2 x4 s t)) = fun t : Fin 32 => score img ttl msk adp b s t iLast := by
    funext t
    unfold Cert.KerTtl.colScore score corr
    simp only [h0, h1, h2, h4]
    refine congrArg fill ((mul_comm _ _).trans ?_)
    exact congrArg (fun z => adp (ix3 s t iLast) * (z * msk (ix3 b s t))) (Finset.sum_congr rfl fun k _ => mul_comm _ _)
  have hv : (fun t : Fin 32 => x1 (ix4 (0 : Fin 1) s t d)) = fun t : Fin 32 => ttl (ix4 b s t d) := funext fun t => h1 s t d
  rw [hs, hv]

end Cert.KerBridge

end
-- ==== Proof.KerArr.lean ====
/-
  From the grid to the arrays.  The grid has one point per batch index b = 0 … 31.  At point b the image,
  title and mask windows hold batch b of their arrays (block index (b, 0, …, 0)), the two adapter windows
  hold the whole adapter slices the host cut before the launch (row t = 31 and column i = 63 of the
  adapter, each reshaped to a matrix), and the two result windows write back batch b of their arrays.
  So by KerBridge.lean each point writes batch b of Spec.lean's results; the 32 blocks tile the result
  arrays (the point that covers row b is b itself), and the arrays end holding `outImg` and `outTtl` of
  the argument arrays.
-/
import proofs.«102525_j23347442221612_2_alg».proof.Proof.Gen.KernelIdeal.Value
import proofs.«102525_j23347442221612_2_alg».proof.Proof.KerBridge
import Idealize.ShloMosaic.Lib.Pipeline.Value
import Idealize.ShloMosaic.Lib.StableHlo.Run
import Idealize.ShloMosaic.Lib.Tactic

noncomputable section

namespace Cert.KerArr

open Cert.KernelIdeal Cert.KernelIdeal.Gen Cert.KernelIdeal.Value
open Idealize.ShloMosaic Idealize.ShloMosaic.TcCoe Idealize.SL.Sem Idealize.ShloMosaic.ValueIdx Cert.Spec
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The index maps over the grid: point t reads and writes batch t -/

theorem idx0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)
theorem idx1 : ∀ t : Fin cfg0.N, win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)
theorem idx2 : ∀ t : Fin cfg0.N, win0_2.index t (0 : Fin 3) = t.val ∧ win0_2.index t (1 : Fin 3) = 0
    ∧ win0_2.index t (2 : Fin 3) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 3) = t.val ∧ win0_5.index t (1 : Fin 3) = 0
    ∧ win0_5.index t (2 : Fin 3) = 0 :=
  (by decide +kernel : ∀ t : Fin grid0.N, _)
theorem idx6 : ∀ t : Fin cfg0.N, win0_6.index t (0 : Fin 3) = t.val ∧ win0_6.index t (1 : Fin 3) = 0
    ∧ win0_6.index t (2 : Fin 3) = 0 :=
  (by decide +kernel : ∀ t : Fin grid0.N, _)

/-- The batch index of a grid point. -/
abbrev batch (t : Fin cfg0.N) : Fin 32 := t.cast N_0

/-! ## The input blocks of a point -/

/-- The image window's block at point t is batch t of the image array. -/
theorem blk0_at (c : Dev nD) (t : Fin cfg0.N) (s : Fin 100) (i : Fin 64) (k : Fin 256) :
    (iblk m c 0 t : Vec Ideal S1x100x64x256 .f32) (ix4 (0 : Fin 1) s i k)
      = ((m ((c : Thread nD τ).loc main_arg0)) : S32x100x64x256.Idx → EReal) (ix4 (batch t) s i k) := by
  obtain ⟨e0, e1, e2, e3⟩ := idx0 t
  unfold iblk
  rw [View.read_apply]
  show V m c main_arg0 _ = _
  rw [V_main_arg0]
  refine congrArg ((m ((c : Thread nD τ).loc main_arg0)) : S32x100x64x256.Idx → EReal) (funext fun a => Fin.ext ?_)
  match a with
  | ⟨0, _⟩ => show win0_0.index t (0 : Fin 4) * 1 + 1 * 0 = t.val; rw [e0]; omega
  | ⟨1, _⟩ => show win0_0.index t (1 : Fin 4) * 100 + 1 * s.val = s.val; rw [e1]; omega
  | ⟨2, _⟩ => show win0_0.index t (2 : Fin 4) * 64 + 1 * i.val = i.val; rw [e2]; omega
  | ⟨3, _⟩ => show win0_0.index t (3 : Fin 4) * 256 + 1 * k.val = k.val; rw [e3]; omega

/-- The title window's block at point t is batch t of the title array. -/
theorem blk1_at (c : Dev nD) (t : Fin cfg0.N) (s : Fin 100) (j : Fin 32) (k : Fin 256) :
    (iblk m c 1 t : Vec Ideal S1x100x32x256 .f32) (ix4 (0 : Fin 1) s j k)
      = ((m ((c : Thread nD τ).loc main_arg1)) : S32x100x32x256.Idx → EReal) (ix4 (batch t) s j k) := by
  obtain ⟨e0, e1, e2, e3⟩ := idx1 t
  unfold iblk
  rw [View.read_apply]
  show V m c main_arg1 _ = _
  rw [V_main_arg1]
  refine congrArg ((m ((c : Thread nD τ).loc main_arg1)) : S32x100x32x256.Idx → EReal) (funext fun a => Fin.ext ?_)
  match a with
  | ⟨0, _⟩ => show win0_1.index t (0 : Fin 4) * 1 + 1 * 0 = t.val; rw [e0]; omega
  | ⟨1, _⟩ => show win0_1.index t (1 : Fin 4) * 100 + 1 * s.val = s.val; rw [e1]; omega
  | ⟨2, _⟩ => show win0_1.index t (2 : Fin 4) * 32 + 1 * j.val = j.val; rw [e2]; omega
  | ⟨3, _⟩ => show win0_1.index t (3 : Fin 4) * 256 + 1 * k.val = k.val; rw [e3]; omega

/-- The mask window's block at point t is batch t of the mask array. -/
theorem blk2_at (c : Dev nD) (t : Fin cfg0.N) (s : Fin 100) (j : Fin 32) :
    (iblk m c 2 t : Vec Ideal S1x100x32 .f32) (ix3 (0 : Fin 1) s j)
      = ((m ((c : Thread nD τ).loc main_arg2)) : S32x100x32.Idx → EReal) (ix3 (batch t) s j) := by
  obtain ⟨e0, e1, e2⟩ := idx2 t
  unfold iblk
  rw [View.read_apply]
  show V m c main_arg2 _ = _
  rw [V_main_arg2]
  refine congrArg ((m ((c : Thread nD τ).loc main_arg2)) : S32x100x32.Idx → EReal) (funext fun a => Fin.ext ?_)
  match a with
  | ⟨0, _⟩ => show win0_2.index t (0 : Fin 3) * 1 + 1 * 0 = t.val; rw [e0]; omega
  | ⟨1, _⟩ => show win0_2.index t (1 : Fin 3) * 100 + 1 * s.val = s.val; rw [e1]; omega
  | ⟨2, _⟩ => show win0_2.index t (2 : Fin 3) * 32 + 1 * j.val = j.val; rw [e2]; omega

/-- What the host cut out of the adapter for the row window: row t = 31, as a [100, 64] matrix. -/
theorem adapterRow_eq (c : Dev nD) :
    (V m c main_v1 : S100x64.Idx → EReal)
      = shapeCast S100x64 (extractStridedSlice S100x1x64 ![0, 31, 0] ((m ((c : Thread nD τ).loc main_arg3)) : S100x32x64.Idx → EReal)
          Facts₀.slices_S100x32x64_S100x1x64_0_31_0) Facts₀.shapeCasts_S100x1x64_S100x64 := by
  dsimp only [V, hostOps0]
  after_results
  rfl

/-- What the host cut out of the adapter for the column window: column i = 63, as a [100, 32] matrix. -/
theorem adapterCol_eq (c : Dev nD) :
    (V m c main_v3 : S100x32.Idx → EReal)
      = shapeCast S100x32 (extractStridedSlice S100x32x1 ![0, 0, 63] ((m ((c : Thread nD τ).loc main_arg3)) : S100x32x64.Idx → EReal)
          Facts₀.slices_S100x32x64_S100x32x1_0_0_63) Facts₀.shapeCasts_S100x32x1_S100x32 := by
  dsimp only [V, hostOps0]
  after_results
  rfl

/-- The adapter-row window's block, at every point, is row 31 of the adapter. -/
theorem blk3_at (c : Dev nD) (t : Fin cfg0.N) (s : Fin 100) (i : Fin 64) :
    (iblk m c 3 t : Vec Ideal S100x64 .f32) (ix2 s i)
      = ((m ((c : Thread nD τ).loc main_arg3)) : S100x32x64.Idx → EReal) (ix3 s tLast i) := by
  obtain ⟨e0, e1⟩ := idx3 t
  unfold iblk
  rw [View.read_apply]
  show (V m c main_v1 : S100x64.Idx → EReal) _ = _
  rw [adapterRow_eq]
  have hy : (((cfg0.win 3).blk t).view.emb (ix2 s i) : S100x64.Idx) = ix2 s i := funext fun a => Fin.ext (by
    match a with
    | ⟨0, _⟩ => show win0_3.index t (0 : Fin 2) * 100 + 1 * s.val = s.val; rw [e0]; omega
    | ⟨1, _⟩ => show win0_3.index t (1 : Fin 2) * 64 + 1 * i.val = i.val; rw [e1]; omega)
  rw [hy, shapeCast_a1b_ab_apply, slice3_axis1_apply 31 _ _ s (0 : Fin 1) i tLast rfl]

/-- A [100, 32, 1] array cast to [100, 32] reads, at (s, t), the operand at (s, t, 0). -/
theorem cast_col_at {α : Type} (x : S100x32x1.Idx → α) (h : S100x32x1.ShapeCasts S100x32) (s : Fin 100) (j : Fin 32) :
    shapeCast S100x32 x h (ix2 s j) = x (ix3 s j (0 : Fin 1)) :=
  shapeCast_apply x h _ _ (by
    rw [Shape.rowMajor_val_three, Shape.rowMajor_val_two]
    show (s.val * 32 + j.val) * 1 + 0 = s.val * 32 + j.val
    omega)

/-- The adapter-column window's block, at every point, is column 63 of the adapter. -/
theorem blk4_at (c : Dev nD) (t : Fin cfg0.N) (s : Fin 100) (j : Fin 32) :
    (iblk m c 4 t : Vec Ideal S100x32 .f32) (ix2 s j)
      = ((m ((c : Thread nD τ).loc main_arg3)) : S100x32x64.Idx → EReal) (ix3 s j iLast) := by
  obtain ⟨e0, e1⟩ := idx4 t
  unfold iblk
  rw [View.read_apply]
  show (V m c main_v3 : S100x32.Idx → EReal) _ = _
  rw [adapterCol_eq]
  have hy : (((cfg0.win 4).blk t).view.emb (ix2 s j) : S100x32.Idx) = ix2 s j := funext fun a => Fin.ext (by
    match a with
    | ⟨0, _⟩ => show win0_4.index t (0 : Fin 2) * 100 + 1 * s.val = s.val; rw [e0]; omega
    | ⟨1, _⟩ => show win0_4.index t (1 : Fin 2) * 32 + 1 * j.val = j.val; rw [e1]; omega)
  rw [hy, cast_col_at]
  refine extractStridedSlice_apply _ _ _ _ _ (fun ax => ?_)
  match ax with
  | ⟨0, _⟩ => exact (Nat.zero_add _).symm
  | ⟨1, _⟩ => exact (Nat.zero_add _).symm
  | ⟨2, _⟩ => rfl

/-! ## The two result arrays -/

/-- The first result array as a function of the arguments' launch contents. -/
abbrev resImg (c : Dev nD) : S32x100x256.Idx → EReal :=
  outImg (m ((c : Thread nD τ).loc main_arg0)) (m ((c : Thread nD τ).loc main_arg1)) (m ((c : Thread nD τ).loc main_arg2)) (m ((c : Thread nD τ).loc main_arg3))

/-- The second result array as a function of the arguments' launch contents. -/
abbrev resTtl (c : Dev nD) : S32x100x256.Idx → EReal :=
  outTtl (m ((c : Thread nD τ).loc main_arg0)) (m ((c : Thread nD τ).loc main_arg1)) (m ((c : Thread nD τ).loc main_arg2)) (m ((c : Thread nD τ).loc main_arg3))

/-- Point t writes back batch t of the first result. -/
theorem flushed5_eq (c : Dev nD) (t : Fin cfg0.N) :
    (dats m 0 c).flushed 5 t = ((cfg0.win 5).blk t).view.read (Elt Ideal) (resImg m c) := by
  obtain ⟨e0, e1, e2⟩ := idx5 t
  rw [Value.flushed5]
  unfold out0_5
  rw [View.canon_unit_zero hz3]
  simp only [View.ld_unit_zero (S := S1x100x64x256) hz4, View.ld_unit_zero (S := S1x100x32x256) hz4,
    View.ld_unit_zero (S := S1x100x32) hz3, View.ld_unit_zero (S := S100x64) hz2]
  have key : ∀ (u : Fin 1) (s : Fin 100) (d : Fin 256),
      (k0_pay1 (k0_pay3 (iblk m c 0 t)) (k0_pay7 (iblk m c 0 t) (iblk m c 1 t) (iblk m c 2 t) (iblk m c 3 t)) : Vec Ideal S1x100x256 .f32) (ix3 u s d)
        = resImg m c (((cfg0.win 5).blk t).view.emb (ix3 u s d)) := by
    intro u s d
    have hy : (((cfg0.win 5).blk t).view.emb (ix3 u s d) : S32x100x256.Idx) = ix3 (batch t) s d := funext fun a => Fin.ext (by
      have hu : u.val = 0 := by omega
      match a with
      | ⟨0, _⟩ => show win0_5.index t (0 : Fin 3) * 1 + 1 * u.val = t.val; rw [e0, hu]; omega
      | ⟨1, _⟩ => show win0_5.index t (1 : Fin 3) * 100 + 1 * s.val = s.val; rw [e1]; omega
      | ⟨2, _⟩ => show win0_5.index t (2 : Fin 3) * 256 + 1 * d.val = d.val; rw [e2]; omega)
    rw [hy]
    exact Cert.KerBridge.img_block (m ((c : Thread nD τ).loc main_arg0)) (m ((c : Thread nD τ).loc main_arg1)) (m ((c : Thread nD τ).loc main_arg2)) (m ((c : Thread nD τ).loc main_arg3))
      (iblk m c 0 t) (iblk m c 1 t) (iblk m c 2 t) (iblk m c 3 t) (batch t)
      (blk0_at m c t) (blk1_at m c t) (blk2_at m c t) (blk3_at m c t) u s d
  funext y
  have hy := eq_ix3 (y : S1x100x256.Idx)
  show (k0_pay1 (k0_pay3 (iblk m c 0 t)) (k0_pay7 (iblk m c 0 t) (iblk m c 1 t) (iblk m c 2 t) (iblk m c 3 t)) : Vec Ideal S1x100x256 .f32) y
        = resImg m c (((cfg0.win 5).blk t).view.emb y)
  rw [hy]
  exact key _ _ _

/-- Point t writes back batch t of the second result. -/
theorem flushed6_eq (c : Dev nD) (t : Fin cfg0.N) :
    (dats m 0 c).flushed 6 t = ((cfg0.win 6).blk t).view.read (Elt Ideal) (resTtl m c) := by
  obtain ⟨e0, e1, e2⟩ := idx6 t
  rw [Value.flushed6]
  unfold out0_6
  rw [View.canon_unit_zero hz3]
  simp only [View.ld_unit_zero (S := S1x100x64x256) hz4, View.ld_unit_zero (S := S1x100x32x256) hz4,
    View.ld_unit_zero (S := S1x100x32) hz3, View.ld_unit_zero (S := S100x32) hz2]
  have key : ∀ (u : Fin 1) (s : Fin 100) (d : Fin 256),
      (k0_pay2 (k0_pay4 (iblk m c 1 t)) (k0_pay6 (iblk m c 0 t) (iblk m c 1 t) (iblk m c 2 t) (iblk m c 4 t)) : Vec Ideal S1x100x256 .f32) (ix3 u s d)
        = resTtl m c (((cfg0.win 6).blk t).view.emb (ix3 u s d)) := by
    intro u s d
    have hy : (((cfg0.win 6).blk t).view.emb (ix3 u s d) : S32x100x256.Idx) = ix3 (batch t) s d := funext fun a => Fin.ext (by
      have hu : u.val = 0 := by omega
      match a with
      | ⟨0, _⟩ => show win0_6.index t (0 : Fin 3) * 1 + 1 * u.val = t.val; rw [e0, hu]; omega
      | ⟨1, _⟩ => show win0_6.index t (1 : Fin 3) * 100 + 1 * s.val = s.val; rw [e1]; omega
      | ⟨2, _⟩ => show win0_6.index t (2 : Fin 3) * 256 + 1 * d.val = d.val; rw [e2]; omega)
    rw [hy]
    exact Cert.KerBridge.ttl_block (m ((c : Thread nD τ).loc main_arg0)) (m ((c : Thread nD τ).loc main_arg1)) (m ((c : Thread nD τ).loc main_arg2)) (m ((c : Thread nD τ).loc main_arg3))
      (iblk m c 0 t) (iblk m c 1 t) (iblk m c 2 t) (iblk m c 4 t) (batch t)
      (blk0_at m c t) (blk1_at m c t) (blk2_at m c t) (blk4_at m c t) u s d
  funext y
  have hy := eq_ix3 (y : S1x100x256.Idx)
  show (k0_pay2 (k0_pay4 (iblk m c 1 t)) (k0_pay6 (iblk m c 0 t) (iblk m c 1 t) (iblk m c 2 t) (iblk m c 4 t)) : Vec Ideal S1x100x256 .f32) y
        = resTtl m c (((cfg0.win 6).blk t).view.emb y)
  rw [hy]
  exact key _ _ _

/-- An index of the first result array is in point t's block iff each coordinate is in the block's range. -/
theorem mem_blk5 (t : Fin cfg0.N) (i : S32x100x256.Idx) :
    i ∈ ((cfg0.win 5).blk t).view.set ↔ ∀ a : Fin 3, win0_5.index t a * S1x100x256.size a ≤ (i a).val ∧ (i a).val < win0_5.index t a * S1x100x256.size a + S1x100x256.size a := by
  show i ∈ ((View.whole main_v4_0).slice (win0_5.rect t)).set ↔ _
  rw [View.set_slice_whole, Rect.mem_set_unit]
  exact Iff.rfl

theorem mem_blk6 (t : Fin cfg0.N) (i : S32x100x256.Idx) :
    i ∈ ((cfg0.win 6).blk t).view.set ↔ ∀ a : Fin 3, win0_6.index t a * S1x100x256.size a ≤ (i a).val ∧ (i a).val < win0_6.index t a * S1x100x256.size a + S1x100x256.size a := by
  show i ∈ ((View.whole main_v4_1).slice (win0_6.rect t)).set ↔ _
  rw [View.set_slice_whole, Rect.mem_set_unit]
  exact Iff.rfl

/-- The point that covers batch row b of a result array is b. -/
def pointOf (i : S32x100x256.Idx) : Fin cfg0.N := ⟨(i 0).val, by rw [show cfg0.N = 32 from N_0]; exact (i 0).isLt⟩

theorem cover5 (i : S32x100x256.Idx) :
    ∃ t : Fin cfg0.N, (cfg0.win 5).flush t = true ∧ i ∈ ((cfg0.win 5).blk t).view.set := by
  refine ⟨pointOf i, flush0_5 _, ?_⟩
  obtain ⟨e0, e1, e2⟩ := idx5 (pointOf i)
  have h1 : (i 1).val < 100 := (i 1).isLt
  have h2 : (i 2).val < 256 := (i 2).isLt
  have ht : (pointOf i).val = (i 0).val := rfl
  rw [mem_blk5]
  intro a
  match a with
  | ⟨0, _⟩ => show win0_5.index (pointOf i) (0 : Fin 3) * 1 ≤ (i 0).val ∧ (i 0).val < win0_5.index (pointOf i) (0 : Fin 3) * 1 + 1; rw [e0, ht]; omega
  | ⟨1, _⟩ => show win0_5.index (pointOf i) (1 : Fin 3) * 100 ≤ (i 1).val ∧ (i 1).val < win0_5.index (pointOf i) (1 : Fin 3) * 100 + 100; rw [e1]; omega
  | ⟨2, _⟩ => show win0_5.index (pointOf i) (2 : Fin 3) * 256 ≤ (i 2).val ∧ (i 2).val < win0_5.index (pointOf i) (2 : Fin 3) * 256 + 256; rw [e2]; omega

theorem cover6 (i : S32x100x256.Idx) :
    ∃ t : Fin cfg0.N, (cfg0.win 6).flush t = true ∧ i ∈ ((cfg0.win 6).blk t).view.set := by
  refine ⟨pointOf i, flush0_6 _, ?_⟩
  obtain ⟨e0, e1, e2⟩ := idx6 (pointOf i)
  have h1 : (i 1).val < 100 := (i 1).isLt
  have h2 : (i 2).val < 256 := (i 2).isLt
  have ht : (pointOf i).val = (i 0).val := rfl
  rw [mem_blk6]
  intro a
  match a with
  | ⟨0, _⟩ => show win0_6.index (pointOf i) (0 : Fin 3) * 1 ≤ (i 0).val ∧ (i 0).val < win0_6.index (pointOf i) (0 : Fin 3) * 1 + 1; rw [e0, ht]; omega
  | ⟨1, _⟩ => show win0_6.index (pointOf i) (1 : Fin 3) * 100 ≤ (i 1).val ∧ (i 1).val < win0_6.index (pointOf i) (1 : Fin 3) * 100 + 100; rw [e1]; omega
  | ⟨2, _⟩ => show win0_6.index (pointOf i) (2 : Fin 3) * 256 ≤ (i 2).val ∧ (i 2).val < win0_6.index (pointOf i) (2 : Fin 3) * 256 + 256; rw [e2]; omega

/-- After the run the first result array holds `outImg` of the arguments. -/
theorem final5 (c : Dev nD) : (dats m 0 c).arrAt 5 cfg0.N = resImg m c :=
  (dats m 0 c).arrAt_eq_of_cover 5 (resImg m c) (fun t _ => flushed5_eq m c t) cover5

/-- After the run the second result array holds `outTtl` of the arguments. -/
theorem final6 (c : Dev nD) : (dats m 0 c).arrAt 6 cfg0.N = resTtl m c :=
  (dats m 0 c).arrAt_eq_of_cover 6 (resTtl m c) (fun t _ => flushed6_eq m c t) cover6

/-- The kernel's run, read: both result arrays at Spec.lean's functions of the arguments, the arguments unchanged. -/
theorem run : θ_run defs (onTc (τ := τ) (main (F := Ideal))) ⟨m, fun _ => 0, ρ⟩ fun r => ∀ c : Dev nD,
      r.2.mem ((c : Thread nD τ).loc main_v4_0) = resImg m c
      ∧ r.2.mem ((c : Thread nD τ).loc main_v4_1) = resTtl m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final5 m c), (h c).2.1.trans (final6 m c), (h c).2.2⟩)
    (Value.run_blocks m ρ)

end Cert.KerArr

end
-- ==== Proof.lean ====
/-
  The claim: a Pallas kernel that computes, per batch, only the one row and the one column of a
  title × image correlation matrix that a cross-attention layer reads out, against a jnp reference
  that computes the whole matrix, both softmaxes of it and both weighted sums, and then keeps row
  t = 31 of one and column i = 63 of the other.

  On the extended reals both are the same function of the arguments (Proof/Spec.lean): a softmax over
  one axis at a fixed index of the other depends on that row (column) of scores only; the kernel's
  changes of float format are the identity; its matrix products into zero accumulators and the
  reference's dot_generals are the same sums; its lane reductions and the reference's reductions are
  the same maxima and sums (the reference's extra `max (-∞) ·` and `0 + ·` change nothing); and the
  two texts multiply mask, adapter and correlation in different orders, which commutativity of the
  product on the extended reals joins.  No finiteness of the inputs is used.

  The three frames are the generated ones (the reference's is its generated run with the results
  dropped); the idealization rewrote nothing, so `preserves` is `True`.
-/
import proofs.«102525_j23347442221612_2_alg».proof.Defs
import proofs.«102525_j23347442221612_2_alg».proof.Proof.Gen.Kernel
import proofs.«102525_j23347442221612_2_alg».proof.Proof.Gen.Kernel.Skeleton
import proofs.«102525_j23347442221612_2_alg».proof.Proof.Gen.Kernel.Launch
import proofs.«102525_j23347442221612_2_alg».proof.Proof.Gen.Kernel.Points
import proofs.«102525_j23347442221612_2_alg».proof.Proof.Gen.Kernel.Frame
import proofs.«102525_j23347442221612_2_alg».proof.Proof.Gen.KernelIdeal
import proofs.«102525_j23347442221612_2_alg».proof.Proof.Gen.KernelIdeal.Skeleton
import proofs.«102525_j23347442221612_2_alg».proof.Proof.Gen.KernelIdeal.Launch
import proofs.«102525_j23347442221612_2_alg».proof.Proof.Gen.KernelIdeal.Points
import proofs.«102525_j23347442221612_2_alg».proof.Proof.Gen.KernelIdeal.Frame
import proofs.«102525_j23347442221612_2_alg».proof.Proof.Gen.ReferenceIdeal
import proofs.«102525_j23347442221612_2_alg».proof.Proof.Gen.Pre_finite_inputs
import proofs.«102525_j23347442221612_2_alg».proof.Proof.Gen.KernelIdeal.Value
import proofs.«102525_j23347442221612_2_alg».proof.Proof.Gen.ReferenceIdeal.Run
import proofs.«102525_j23347442221612_2_alg».proof.Proof.Gen.ReferenceIdeal.Read
import proofs.«102525_j23347442221612_2_alg».proof.Proof.RefTtl
import proofs.«102525_j23347442221612_2_alg».proof.Proof.KerArr
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its generated run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with their two results at Spec.lean's `outImg` and `outTtl` of arguments that agree. -/
theorem algebraic : Cert.algebraic_KernelIdeal_ReferenceIdeal := by
  intro m ρ m' ρ' _ hagree
  refine ⟨fun c => Cert.KerArr.resImg m c, fun c => Cert.KerArr.resTtl m c, Cert.KerArr.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v36_eq, Cert.RefImg.result_eq, (hagree c).1, (hagree c).2.1, (hagree c).2.2.1,
      (hagree c).2.2.2]
  · rw [Cert.ReferenceIdeal.Read.val_main_v38_eq, Cert.RefTtl.result_eq, (hagree c).1, (hagree c).2.1, (hagree c).2.2.1,
      (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
